-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x16 .f32) (main_arg6 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x128 : Shape := ⟨2, ![2000, 128]⟩
abbrev S2000x64 : Shape := ⟨2, ![2000, 64]⟩
abbrev S1700000x64 : Shape := ⟨2, ![1700000, 64]⟩
abbrev S1x64 : Shape := ⟨2, ![1, 64]⟩
abbrev S100000x16 : Shape := ⟨2, ![100000, 16]⟩
abbrev S2000x16 : Shape := ⟨2, ![2000, 16]⟩
abbrev S1700000x16 : Shape := ⟨2, ![1700000, 16]⟩
abbrev S1x16 : Shape := ⟨2, ![1, 16]⟩
abbrev S2000 : Shape := ⟨1, ![2000]⟩
abbrev S2000x1 : Shape := ⟨2, ![2000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x16, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x16, .f32⟩
  | .hbm, ⟨79, _⟩ => ⟨S1700000x16, .f32⟩
  | .hbm, ⟨80, _⟩ => ⟨S1700000x16, .f32⟩
  | .hbm, ⟨81, _⟩ => ⟨S_, .f32⟩
  | .hbm, ⟨82, _⟩ => ⟨S100000x16, .f32⟩
  | .hbm, ⟨83, _⟩ => ⟨S1700000x1, .i32⟩
  | .hbm, ⟨84, _⟩ => ⟨S100000x16, .f32⟩
  | .hbm, ⟨85, _⟩ => ⟨S1x16, .f32⟩
  | .hbm, ⟨86, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x16_S2000x16_1_0_0_1_n_n_wf : DotDims.WF S2000x64 S64x16 S2000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S100000x64 : Shape := ⟨2, ![100000, 64]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x16, .f32⟩
  | 6 => ⟨S16, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S1700000, .f32⟩
  | 17 => ⟨S100000x64, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x16, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S1700000x1, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x16, .f32⟩
  | 115 => ⟨S1700000x16, .f32⟩
  | 116 => ⟨S1700000x16, .f32⟩
  | 117 => ⟨S_, .f32⟩
  | 118 => ⟨S100000x16, .f32⟩
  | 119 => ⟨S1700000x1, .i32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000x1, .f32⟩
  | 2 => ⟨S100000x16, .f32⟩
  | 3 => ⟨S100000x16, .f32⟩
  | 4 => ⟨S100000x16, .f32⟩
  | 5 => ⟨S_, .f32⟩
  | 6 => ⟨S100000, .f32⟩
  | 7 => ⟨S100000x1, .f32⟩
  | 8 => ⟨S100000x1, .f32⟩
  | 9 => ⟨S100000x16, .f32⟩
  | 10 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call3_cst : Ref sig .tc := ⟨.hbm, 124, rfl⟩
abbrev main_call3_v0 : Ref sig .tc := ⟨.hbm, 125, rfl⟩
abbrev main_call3_cst_0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_cst_1 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_v90 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KRun.lean ====
/-
  The idealized kernel's run with its result named.

  Every weakly fair execution of @main terminates, nothing faulting; the final state has the result buffer at what the
  last boundary of the run holds there (the contents after the fourth region's write-backs), and every argument array
  as launched. The run is the one the frame is proved by: the host stretches and the four regions as segments, launched
  together; only the final reading differs, which also reads the result buffer off the last thread state.
-/
import proofs.«178137_j82291573391519_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: it terminates without a fault, the result buffer ends at the last boundary's contents and the
    argument arrays end as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunV

end
-- ==== Proof.KStretch.lean ====
/-
  The host side of the idealized kernel, one stretch of operations at a time.

  Between the four regions @main computes, once, the graph's data — the two index vectors with the self loops
  appended (source and destination of every edge), the edge weights with ones appended, the weighted in-degree
  (a scatter-add of the weights into their destinations), its inverse square root where the degree is positive and
  zero elsewhere, and the symmetric normalisation of every edge (the factor of its source, its weight, the factor of
  its destination) — and, per layer, the aggregation of the layer's node features: the rows gathered at the edges'
  sources, scaled by the edges' normalisations, and scatter-added into the edges' destinations. A negative index is
  first wrapped by the node count, as the gather's lowering does.

  Each stretch is read for ANY contents `W` of the buffers it starts from: what it leaves at each buffer a later
  segment reads, as a named function of what it found at the buffers it reads; and that it leaves every other buffer
  alone.
-/
import proofs.«178137_j82291573391519_1_alg».proof.Proof.Gen.KernelIdeal.Launch
import Idealize.ShloMosaic.Lib.StableHlo.Run

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]

/-! ## The graph's data and the aggregation, as functions of arrays -/

/-- The edges' sources: row 0 of the index pairs, then every node once (the self loops). -/
def srcW (x1 : (⟨S2x1600000, .i32⟩ : BufTy).Contents (Elt F)) : (⟨S1700000, .i32⟩ : BufTy).Contents (Elt F) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The edges' destinations: row 1 of the index pairs, then every node once. -/
def dstW (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- The edges' weights, then a one per self loop. -/
def ewW (x2 : (⟨S1600000, .f32⟩ : BufTy).Contents (Elt F)) : (⟨S1700000, .f32⟩ : BufTy).Contents (Elt F) :=
  concatenate S1700000 0 [⟨S1600000, x2⟩, ⟨S100000, (broadcastInDim S100000 ![] bcast_S_S100000 (constant S_ .f32 0x3F800000#32))⟩] concatenates_S1600000_S100000_S1700000_d0

/-- The weighted in-degree: the weights scatter-added into their destinations, from zero. -/
def degW (d : (⟨S1700000, .i32⟩ : BufTy).Contents (Elt F)) (e : (⟨S1700000, .f32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) e

/-- Where the degree is positive. -/
def posW (d : (⟨S1700000, .i32⟩ : BufTy).Contents (Elt F)) (e : (⟨S1700000, .f32⟩ : BufTy).Contents (Elt F)) : (⟨S100000, .i1⟩ : BufTy).Contents (Elt F) :=
  cmpf .ogt (degW d e) (broadcastInDim S100000 ![] bcast_S_S100000 (constant S_ .f32 0x00000000#32))

/-- The degree's inverse square root. -/
def rsqW (d : (⟨S1700000, .i32⟩ : BufTy).Contents (Elt F)) (e : (⟨S1700000, .f32⟩ : BufTy).Contents (Elt F)) : (⟨S100000, .f32⟩ : BufTy).Contents (Elt F) :=
  Host.rsqrt (degW d e)

/-- The node factor: the inverse square root where the mask holds, the scalar `z` elsewhere. -/
def pickW (p : (⟨S100000, .i1⟩ : BufTy).Contents (Elt F)) (r : (⟨S100000, .f32⟩ : BufTy).Contents (Elt F)) (z : (⟨S_, .f32⟩ : BufTy).Contents (Elt F)) : (⟨S100000, .f32⟩ : BufTy).Contents (Elt F) :=
  select p r (broadcastInDim S100000 ![] bcast_S_S100000 (id z))

/-- An index vector with its negative entries wrapped by the node count. -/
def wrapW (ix : (⟨S1700000, .i32⟩ : BufTy).Contents (Elt F)) : (⟨S1700000, .i32⟩ : BufTy).Contents (Elt F) :=
  select (cmpi .slt ix (broadcastInDim S1700000 ![] bcast_S_S1700000 (constantI S_ 32 0#32))) (addi ix (broadcastInDim S1700000 ![] bcast_S_S1700000 (constantI S_ 32 100000#32))) ix

/-- The edges' normalisations: the source's factor, the weight, the destination's factor. -/
def normW (q : (⟨S100000, .f32⟩ : BufTy).Contents (Elt F)) (s d : (⟨S1700000, .i32⟩ : BufTy).Contents (Elt F)) (e : (⟨S1700000, .f32⟩ : BufTy).Contents (Elt F)) : (⟨S1700000, .f32⟩ : BufTy).Contents (Elt F) :=
  mulf (mulf (Host.gather gather_S100000_S1700000x1_S1700000_n_0_n_n_0_1_1 q (broadcastInDim S1700000x1 ![0] bcast_S1700000_S1700000x1_0 (wrapW s))) e) (Host.gather gather_S100000_S1700000x1_S1700000_n_0_n_n_0_1_1 q (broadcastInDim S1700000x1 ![0] bcast_S1700000_S1700000x1_0 (wrapW d)))

/-- One layer's aggregation of 64 features per node. -/
def agg64 (s d : (⟨S1700000, .i32⟩ : BufTy).Contents (Elt F)) (n : (⟨S1700000, .f32⟩ : BufTy).Contents (Elt F)) (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (broadcastInDim S1700000x64 ![0, 1] bcast_S1700000x1_S1700000x64_0_1 (broadcastInDim S1700000x1 ![0] bcast_S1700000_S1700000x1_0 n)) (Host.gather gather_S100000x64_S1700000x1_S1700000x64_1_0_n_n_0_1_164 h (broadcastInDim S1700000x1 ![0] bcast_S1700000_S1700000x1_0 (wrapW s))))

/-- One layer's aggregation of 16 features per node. -/
def agg16 (s d : (⟨S1700000, .i32⟩ : BufTy).Contents (Elt F)) (n : (⟨S1700000, .f32⟩ : BufTy).Contents (Elt F)) (h : (⟨S100000x16, .f32⟩ : BufTy).Contents (Elt F)) : (⟨S100000x16, .f32⟩ : BufTy).Contents (Elt F) :=
  Host.scatterAdd scatter_S100000x16_S1700000x1_S1700000x16_1_0_0_1 (broadcastInDim S100000x16 ![] bcast_S_S100000x16 (constant S_ .f32 0x00000000#32)) (broadcastInDim S1700000x1 ![0] bcast_S1700000_S1700000x1_0 d) (mulf (broadcastInDim S1700000x16 ![0, 1] bcast_S1700000x1_S1700000x16_0_1 (broadcastInDim S1700000x1 ![0] bcast_S1700000_S1700000x1_0 n)) (Host.gather gather_S100000x16_S1700000x1_S1700000x16_1_0_n_n_0_1_116 h (broadcastInDim S1700000x1 ![0] bcast_S1700000_S1700000x1_0 (wrapW s))))

/-- A bias vector of 64 as a one-row matrix. -/
def row64 (x4 : (⟨S64, .f32⟩ : BufTy).Contents (Elt F)) : (⟨S1x64, .f32⟩ : BufTy).Contents (Elt F) :=
  shapeCast _ x4 shapeCasts_S64_S1x64

/-- A bias vector of 16 as a one-row matrix. -/
def row16 (x6 : (⟨S16, .f32⟩ : BufTy).Contents (Elt F)) : (⟨S1x16, .f32⟩ : BufTy).Contents (Elt F) :=
  shapeCast _ x6 shapeCasts_S16_S1x16

/-- The edges' normalisations from the two arguments that hold the graph: the node factors are the inverse square roots
    of the positive degrees, zero elsewhere. -/
def normOf (x1 : (⟨S2x1600000, .i32⟩ : BufTy).Contents (Elt F)) (x2 : (⟨S1600000, .f32⟩ : BufTy).Contents (Elt F)) :
    (⟨S1700000, .f32⟩ : BufTy).Contents (Elt F) :=
  normW (pickW (posW (dstW x1) (ewW x2)) (rsqW (dstW x1) (ewW x2)) (constant S_ .f32 0x00000000#32)) (srcW x1) (dstW x1) (ewW x2)

variable (W : Valuation τ sig (Elt F))

/-! ## The first stretch: indices, weights, degree -/

theorem ops0_v3 : after hostOps0 W (Proc.devRef .tc main_v3) = srcW (W (Proc.devRef .tc main_arg1)) := by
  dsimp only [hostOps0]; after_results <;> rfl
theorem ops0_v6 : after hostOps0 W (Proc.devRef .tc main_v6) = dstW (W (Proc.devRef .tc main_arg1)) := by
  dsimp only [hostOps0]; after_results <;> rfl
theorem ops0_v8 : after hostOps0 W (Proc.devRef .tc main_v8) = ewW (W (Proc.devRef .tc main_arg2)) := by
  dsimp only [hostOps0]; after_results <;> rfl
theorem ops0_v13 : after hostOps0 W (Proc.devRef .tc main_v13) = posW (dstW (W (Proc.devRef .tc main_arg1))) (ewW (W (Proc.devRef .tc main_arg2))) := by
  dsimp only [hostOps0]; after_results <;> rfl
theorem ops0_v14 : after hostOps0 W (Proc.devRef .tc main_v14) = rsqW (dstW (W (Proc.devRef .tc main_arg1))) (ewW (W (Proc.devRef .tc main_arg2))) := by
  dsimp only [hostOps0]; after_results <;> rfl
theorem ops0_cst_2 : after hostOps0 W (Proc.devRef .tc main_cst_2) = constant S_ .f32 0x00000000#32 := by
  dsimp only [hostOps0]; after_results <;> rfl

/-! ### … and the buffers it leaves alone -/

theorem ops0_arg0 : after hostOps0 W (Proc.devRef .tc main_arg0) = W (Proc.devRef .tc main_arg0) := by
  dsimp only [hostOps0]; after_results <;> rfl
theorem ops0_arg3 : after hostOps0 W (Proc.devRef .tc main_arg3) = W (Proc.devRef .tc main_arg3) := by
  dsimp only [hostOps0]; after_results <;> rfl
theorem ops0_arg4 : after hostOps0 W (Proc.devRef .tc main_arg4) = W (Proc.devRef .tc main_arg4) := by
  dsimp only [hostOps0]; after_results <;> rfl
theorem ops0_arg5 : after hostOps0 W (Proc.devRef .tc main_arg5) = W (Proc.devRef .tc main_arg5) := by
  dsimp only [hostOps0]; after_results <;> rfl
theorem ops0_arg6 : after hostOps0 W (Proc.devRef .tc main_arg6) = W (Proc.devRef .tc main_arg6) := by
  dsimp only [hostOps0]; after_results <;> rfl

/-! ## The second stretch: the node factor -/

theorem ops01_v15 : after hostOps0_1 W (Proc.devRef .tc main_v15) = pickW (W (Proc.devRef .tc main_v13)) (W (Proc.devRef .tc main_v14)) (W (Proc.devRef .tc main_cst_2)) := by
  dsimp only [hostOps0_1]; after_results <;> rfl
theorem ops01_v3 : after hostOps0_1 W (Proc.devRef .tc main_v3) = W (Proc.devRef .tc main_v3) := by
  dsimp only [hostOps0_1]; after_results <;> rfl
theorem ops01_v6 : after hostOps0_1 W (Proc.devRef .tc main_v6) = W (Proc.devRef .tc main_v6) := by
  dsimp only [hostOps0_1]; after_results <;> rfl
theorem ops01_v8 : after hostOps0_1 W (Proc.devRef .tc main_v8) = W (Proc.devRef .tc main_v8) := by
  dsimp only [hostOps0_1]; after_results <;> rfl
theorem ops01_arg0 : after hostOps0_1 W (Proc.devRef .tc main_arg0) = W (Proc.devRef .tc main_arg0) := by
  dsimp only [hostOps0_1]; after_results <;> rfl
theorem ops01_arg3 : after hostOps0_1 W (Proc.devRef .tc main_arg3) = W (Proc.devRef .tc main_arg3) := by
  dsimp only [hostOps0_1]; after_results <;> rfl
theorem ops01_arg4 : after hostOps0_1 W (Proc.devRef .tc main_arg4) = W (Proc.devRef .tc main_arg4) := by
  dsimp only [hostOps0_1]; after_results <;> rfl
theorem ops01_arg5 : after hostOps0_1 W (Proc.devRef .tc main_arg5) = W (Proc.devRef .tc main_arg5) := by
  dsimp only [hostOps0_1]; after_results <;> rfl
theorem ops01_arg6 : after hostOps0_1 W (Proc.devRef .tc main_arg6) = W (Proc.devRef .tc main_arg6) := by
  dsimp only [hostOps0_1]; after_results <;> rfl

/-! ## The third stretch: the edges' normalisations -/

set_option maxHeartbeats 4000000 in
theorem ops02_v31 : after hostOps0_2 W (Proc.devRef .tc main_v31) = normW (W (Proc.devRef .tc main_v15)) (W (Proc.devRef .tc main_v3)) (W (Proc.devRef .tc main_v6)) (W (Proc.devRef .tc main_v8)) := by
  dsimp only [hostOps0_2]; after_results_simp <;> rfl
theorem ops02_v3 : after hostOps0_2 W (Proc.devRef .tc main_v3) = W (Proc.devRef .tc main_v3) := by
  dsimp only [hostOps0_2]; after_results <;> rfl
theorem ops02_v6 : after hostOps0_2 W (Proc.devRef .tc main_v6) = W (Proc.devRef .tc main_v6) := by
  dsimp only [hostOps0_2]; after_results <;> rfl
theorem ops02_arg0 : after hostOps0_2 W (Proc.devRef .tc main_arg0) = W (Proc.devRef .tc main_arg0) := by
  dsimp only [hostOps0_2]; after_results <;> rfl
theorem ops02_arg3 : after hostOps0_2 W (Proc.devRef .tc main_arg3) = W (Proc.devRef .tc main_arg3) := by
  dsimp only [hostOps0_2]; after_results <;> rfl
theorem ops02_arg4 : after hostOps0_2 W (Proc.devRef .tc main_arg4) = W (Proc.devRef .tc main_arg4) := by
  dsimp only [hostOps0_2]; after_results <;> rfl
theorem ops02_arg5 : after hostOps0_2 W (Proc.devRef .tc main_arg5) = W (Proc.devRef .tc main_arg5) := by
  dsimp only [hostOps0_2]; after_results <;> rfl
theorem ops02_arg6 : after hostOps0_2 W (Proc.devRef .tc main_arg6) = W (Proc.devRef .tc main_arg6) := by
  dsimp only [hostOps0_2]; after_results <;> rfl

/-! ## The stretch after the first product: the first layer's aggregation, and the first bias as a row -/

set_option maxHeartbeats 4000000 in
theorem ops1_v45 : after hostOps1 W (Proc.devRef .tc main_v45) = agg64 (W (Proc.devRef .tc main_v3)) (W (Proc.devRef .tc main_v6)) (W (Proc.devRef .tc main_v31)) (W (Proc.devRef .tc main_v32)) := by
  dsimp only [hostOps1]; after_results_simp <;> rfl
theorem ops1_v46 : after hostOps1 W (Proc.devRef .tc main_v46) = row64 (W (Proc.devRef .tc main_arg4)) := by
  dsimp only [hostOps1]; after_results <;> rfl
theorem ops1_v3 : after hostOps1 W (Proc.devRef .tc main_v3) = W (Proc.devRef .tc main_v3) := by
  dsimp only [hostOps1]; after_results <;> rfl
theorem ops1_v6 : after hostOps1 W (Proc.devRef .tc main_v6) = W (Proc.devRef .tc main_v6) := by
  dsimp only [hostOps1]; after_results <;> rfl
theorem ops1_v31 : after hostOps1 W (Proc.devRef .tc main_v31) = W (Proc.devRef .tc main_v31) := by
  dsimp only [hostOps1]; after_results <;> rfl
theorem ops1_arg5 : after hostOps1 W (Proc.devRef .tc main_arg5) = W (Proc.devRef .tc main_arg5) := by
  dsimp only [hostOps1]; after_results <;> rfl
theorem ops1_arg6 : after hostOps1 W (Proc.devRef .tc main_arg6) = W (Proc.devRef .tc main_arg6) := by
  dsimp only [hostOps1]; after_results <;> rfl

/-! ## The stretch after the second product: the second layer's aggregation, and the second bias as a row -/

set_option maxHeartbeats 4000000 in
theorem ops3_v61 : after hostOps3 W (Proc.devRef .tc main_v61) = agg16 (W (Proc.devRef .tc main_v3)) (W (Proc.devRef .tc main_v6)) (W (Proc.devRef .tc main_v31)) (W (Proc.devRef .tc main_v48)) := by
  dsimp only [hostOps3]; after_results_simp <;> rfl
theorem ops3_v62 : after hostOps3 W (Proc.devRef .tc main_v62) = row16 (W (Proc.devRef .tc main_arg6)) := by
  dsimp only [hostOps3]; after_results <;> rfl

end Cert.KernelIdeal.Stretch

end
-- ==== Proof.Spec.lean ====
/-
  The four dense node-wise stages of a two-layer graph convolution, as functions of whole arrays on the extended reals.

  * `mm x w`: the matrix product, entry (i, j) the sum over k of x(i, k) · w(k, j).
  * `biasRelu a b`: a row vector b (kept as a one-row matrix) added to every row of a, then the maximum with the
    zero word.
  * `biasLogSoftmax a b`: with v = a + b (b added to every row), entry (i, j) is
    (v(i, j) − m_i) − log (Σ_k exp (v(i, k) − m_i)), where m_i is the maximum of row i of v, taken as the fold of
    `max` over the row's entries from the word of −∞.
  The float words (zero, −∞) are kept as words: both programs carry the same words, so they are never evaluated.
-/
import Idealize.ShloMosaic.PureOps.Ideal
import Idealize.ShloMosaic.Lib.ValueIdx

open scoped BigOperators

noncomputable section

namespace Cert.Gcn

open Idealize.ShloMosaic Idealize.ShloMosaic.ValueIdx

/-- The float word of zero, read on the extended reals. -/
abbrev zeroW : EReal := Ideal.ofBits .f32 0x00000000#32
/-- The float word of −∞, read on the extended reals. -/
abbrev negInfW : EReal := Ideal.ofBits .f32 0xFF800000#32

/-- The matrix product: entry (i, j) is the sum over k of x(i, k) · w(k, j). -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A one-row matrix added to every row. -/
def addRow {M N : Nat} (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- The row added, then the maximum with zero. -/
def biasRelu {M N : Nat} (a : (⟨2, ![M, N]⟩ : Shape).Idx → EReal) (b : (⟨2, ![1, N]⟩ : Shape).Idx → EReal) :
    (⟨2, ![M, N]⟩ : Shape).Idx → EReal :=
  fun i => max (addRow a b i) zeroW

/-- The maximum of row p, as the fold of `max` from the word of −∞ over the row's entries. -/
def rowMax {M N : Nat} (v : (⟨2, ![M, N]⟩ : Shape).Idx → EReal) (p : Fin M) : EReal :=
  (Finset.univ : Finset (Fin N)).fold max negInfW (fun k => v (ix2 p k))

/-- Row-wise log-softmax of a matrix: the row maximum subtracted, then the logarithm of the row's sum of exponentials. -/
def logSoftmax {M N : Nat} (v : (⟨2, ![M, N]⟩ : Shape).Idx → EReal) : (⟨2, ![M, N]⟩ : Shape).Idx → EReal :=
  fun i => (v i - rowMax v (i 0)) - Ideal.log (∑ k : Fin N, Ideal.exp (v (ix2 (i 0) k) - rowMax v (i 0)))

/-- The row added, then the row-wise log-softmax. -/
def biasLogSoftmax {M N : Nat} (a : (⟨2, ![M, N]⟩ : Shape).Idx → EReal) (b : (⟨2, ![1, N]⟩ : Shape).Idx → EReal) :
    (⟨2, ![M, N]⟩ : Shape).Idx → EReal :=
  logSoftmax (addRow a b)

end Cert.Gcn

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  Region 0 (the first dense product, 50 row tiles of 2000): what its result array holds after the region.
-/
import proofs.«178137_j82291573391519_1_alg».proof.Proof.Gen.KernelIdeal.Frame
import proofs.«178137_j82291573391519_1_alg».proof.Proof.Spec
import proofs.«178137_j82291573391519_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Gcn.Region0

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The offset vector of a whole-buffer access is zero on both axes. -/
theorem zero_offsets : (![0, 0] : Fin 2 → Nat) = fun _ => 0 := funext fun a => by fin_cases a <;> rfl

/-- The tile's product at an index: entry (p, q) is the sum over k of x(p, k) · w(k, q) (rounding the operands to the
    narrower format is the identity on the extended reals; the accumulator starts at zero). -/
theorem tile_product_apply (x : Vec Ideal S2000x128 .f32) (w : Vec Ideal S128x64 .f32) (p : Fin 2000) (q : Fin 64) :
    k0_pay1 x w (ix2 p q) = ∑ k : Fin 128, x (ix2 p k) * w (ix2 k q) := by
  unfold k0_pay1
  exact Cert.MatOps.matmul_plain_zero_apply (M := 2000) (K := 128) (N := 64) none _ _ p q

/-- A tile whose row p is row r of the array a, against a weight block that is the array b: entry (p, q) of the tile's
    product is entry (r, q) of the product of the arrays. -/
theorem tile_product_eq_mm (x : Vec Ideal S2000x128 .f32) (w : Vec Ideal S128x64 .f32)
    (a : S100000x128.Idx → EReal) (b : S128x64.Idx → EReal) (p : Fin 2000) (q : Fin 64) (r : Fin 100000)
    (hx : ∀ k : Fin 128, x (ix2 p k) = a (ix2 r k)) (hw : ∀ k : Fin 128, w (ix2 k q) = b (ix2 k q)) :
    k0_pay1 x w (ix2 p q) = Cert.Gcn.mm (M := 100000) (K := 128) (N := 64) a b (ix2 r q) := by
  rw [tile_product_apply]
  show _ = ∑ k : Fin 128, a (ix2 r k) * b (ix2 k q)
  exact Finset.sum_congr rfl fun k _ => by rw [hx k, hw k]

/-- The index maps over the grid: at point t the row-tile windows (left operand, result) sit at block (t, 0), the weight
    window at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays the region finds: row p of tile t is row
    2000·t + p of the left array, and the weight block is the whole right array. -/
theorem written_back_eq (c : Dev nD) (t : Fin cfg0.N) :
    (dat0 (F := Ideal) V c).flushed 2 t = ((cfg0.win 2).blk t).view.read (Elt Ideal) (Cert.Gcn.mm (M := 100000) (K := 128) (N := 64) (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x64) zero_offsets]
  obtain ⟨e00, e01, e10, e11, e20, e21⟩ := block_indices t
  have ht : t.val < 50 := lt_of_lt_of_eq t.isLt N_0
  funext j
  obtain ⟨p, q, rfl⟩ : ∃ (p : Fin 2000) (q : Fin 64), j = ix2 p q := ⟨j 0, j 1, eq_ix2 j⟩
  have hp : p.val < 2000 := p.isLt
  have h2 : ((cfg0.win 2).blk t).view.emb (ix2 p q) = ix2 (⟨t.val * 2000 + p.val, by omega⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 64 + 1 * q.val = q.val; omega
  show k0_pay1 (iblk0 V c 0 t) (iblk0 V c 1 t) (ix2 p q) = Cert.Gcn.mm (M := 100000) (K := 128) (N := 64) (V c main_arg0) (V c main_arg3) (((cfg0.win 2).blk t).view.emb (ix2 p q))
  rw [h2]
  refine tile_product_eq_mm _ _ _ _ p q _ (fun k => ?_) (fun k => ?_)
  · show V c main_arg0 (((cfg0.win 0).blk t).view.emb (ix2 p k)) = V c main_arg0 _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_arg3 (((cfg0.win 1).blk t).view.emb (ix2 k q)) = V c main_arg3 _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega

/-- An index of the result array is in point t's tile iff each coordinate is in the tile's range on its axis. -/
theorem mem_tile (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- The 50 row tiles cover the 100000 rows: row r is in the tile of point r / 2000. -/
theorem tiles_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by rw [show cfg0.N = 50 from N_0]; omega⟩, rfl⟩
  obtain ⟨_, _, _, _, e20, e21⟩ := block_indices t
  refine ⟨t, flush0_2 t, ?_⟩
  rw [mem_tile]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The first matrix product's result array after the region: the product of the two arrays the region finds. -/
theorem value (c : Dev nD) :
    (dat0 (F := Ideal) V c).arrAt 2 cfg0.N = Cert.Gcn.mm (M := 100000) (K := 128) (N := 64) (V c main_arg0) (V c main_arg3) :=
  (dat0 (F := Ideal) V c).arrAt_eq_of_cover 2 _ (fun t _ => written_back_eq V c t) tiles_cover

end Cert.Gcn.Region0

end
-- ==== Proof.Region1.lean ====
/-
  Region 1 (bias, then the maximum with zero, 50 row tiles of 2000): what its result array holds after the region.

  The body reads one tile a of 2000 rows of the aggregate and the whole one-row bias b, and stores, at entry (p, q) of
  the tile, max (a(p, q) + b(0, q)) zero. Row p of tile t is row 2000·t + p of the array and the bias block is the
  whole bias array, so the tile written back at point t is tile t of the whole-array function
  (i, j) ↦ max (A(i, j) + B(0, j)) zero; the 50 tiles cover the 100000 rows.
-/
import proofs.«178137_j82291573391519_1_alg».proof.Proof.Gen.KernelIdeal.Frame
import proofs.«178137_j82291573391519_1_alg».proof.Proof.Spec
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Gcn.Region1

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The zero offsets of a whole-buffer access, as a constant function. -/
theorem hz : (![0, 0] : Fin 2 → Nat) = fun _ => 0 := funext fun a => by fin_cases a <;> rfl

/-- The body's stored value at entry (p, q) of a tile: the tile's entry plus the bias row's entry of the same column,
    then the maximum with the zero word. -/
theorem pay_apply (a : Vec Ideal S2000x64 .f32) (b : Vec Ideal S1x64 .f32) (p : Fin 2000) (q : Fin 64) :
    k1_pay1 a b (ix2 p q) = max (a (ix2 p q) + b (ix2 (0 : Fin 1) q)) Cert.Gcn.zeroW := by
  unfold k1_pay1
  rw [maximumf_apply, addf_apply, broadcast_apply, shapeCast_self, shapeCast_self, broadcastTo_1b_ab_apply]
  rfl

/-- The index maps over the grid: the aggregate's tile and the result's tile sit at the same block index (t, 0),
    the bias block is always block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the stored tile is the whole-array function at the array index it is written to, once the loaded tile
    is the aggregate there (h0), the loaded row is the bias array (h1), and the columns agree (hq). -/
theorem tile_entry (A : S100000x64.Idx → EReal) (B : S1x64.Idx → EReal)
    (x0 : Vec Ideal S2000x64 .f32) (x1 : Vec Ideal S1x64 .f32) (j : S2000x64.Idx) (i : S100000x64.Idx)
    (h0 : x0 j = A i) (h1 : ∀ y : S1x64.Idx, x1 y = B y) (hq : (j 1).val = (i 1).val) :
    k1_pay1 x0 x1 j = Cert.Gcn.biasRelu (M := 100000) (N := 64) A B i := by
  obtain ⟨p, q, rfl⟩ : ∃ (p : Fin 2000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q = q' := Fin.ext hq
  rw [pay_apply, h0, h1]
  rfl

/-- What point t writes back is tile t of the whole-array function. -/
theorem flushed_eq (c : Dev nD) (t : Fin cfg1.N) :
    (dat1 (F := Ideal) V c).flushed 2 t
      = ((cfg1.win 2).blk t).view.read (Elt Ideal) (Cert.Gcn.biasRelu (M := 100000) (N := 64) (V c main_v45) (V c main_v46)) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  obtain ⟨e0, e1, e2, e3, e4, e5⟩ := idx_facts t
  funext j
  show k1_pay1 (iblk1 V c 0 t) (iblk1 V c 1 t) j
    = Cert.Gcn.biasRelu (M := 100000) (N := 64) (V c main_v45) (V c main_v46) (((cfg1.win 2).blk t).view.emb j)
  refine tile_entry (V c main_v45) (V c main_v46) (iblk1 V c 0 t) (iblk1 V c 1 t) j (((cfg1.win 2).blk t).view.emb j) ?_ ?_ ?_
  · -- row p of tile t of the aggregate is row 2000·t + p of the array, in the same column
    show V c main_v45 (((cfg1.win 0).blk t).view.emb j) = V c main_v45 (((cfg1.win 2).blk t).view.emb j)
    refine congrArg (V c main_v45) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * (j 1).val = win1_2.index t (1 : Fin 2) * 64 + 1 * (j 1).val; omega
  · -- the bias block is the whole one-row array
    intro y
    show V c main_v46 (((cfg1.win 1).blk t).view.emb y) = V c main_v46 y
    refine congrArg (V c main_v46) ?_
    funext a; apply Fin.ext
    match a with
    | ⟨0, _⟩ => show win1_1.index t (0 : Fin 2) * 1 + 1 * (y 0).val = (y 0).val; omega
    | ⟨1, _⟩ => show win1_1.index t (1 : Fin 2) * 64 + 1 * (y 1).val = (y 1).val; omega
  · -- the result's tile keeps the column
    show (j 1).val = win1_2.index t (1 : Fin 2) * 64 + 1 * (j 1).val
    omega

/-- An index of the array is in point t's tile iff each coordinate is in the tile's range on its axis. -/
theorem mem_blk (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v47).slice (win1_2.rect t)).set ↔ _
  rw [View.set_slice_whole, Rect.mem_set_unit]
  exact Iff.rfl

/-- The 50 tiles cover the array: row r lies in tile r / 2000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 2000 < cfg1.N := by show _ < grid1.N; rw [N_1]; omega
  obtain ⟨-, -, -, -, e4, e5⟩ := idx_facts ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    omega
  | ⟨1, _⟩ =>
    show win1_2.index ⟨(i 0).val / 2000, ht⟩ (1 : Fin 2) * 64 ≤ (i 1).val ∧ (i 1).val < win1_2.index ⟨(i 0).val / 2000, ht⟩ (1 : Fin 2) * 64 + 64
    omega

/-- The bias-and-clamp region's result array: the row added to every row of the aggregate, then the maximum with zero. -/
theorem value (c : Dev nD) :
    (dat1 (F := Ideal) V c).arrAt 2 cfg1.N = Cert.Gcn.biasRelu (M := 100000) (N := 64) (V c main_v45) (V c main_v46) :=
  (dat1 (F := Ideal) V c).arrAt_eq_of_cover 2 (Cert.Gcn.biasRelu (M := 100000) (N := 64) (V c main_v45) (V c main_v46))
    (fun t _ => flushed_eq V c t) cover

end Cert.Gcn.Region1

end
-- ==== Proof.Region2.lean ====
/-
  Region 2 (the second dense product, 50 row tiles of 2000): what its result array holds after the region.
-/
import proofs.«178137_j82291573391519_1_alg».proof.Proof.Gen.KernelIdeal.Frame
import proofs.«178137_j82291573391519_1_alg».proof.Proof.Spec
import proofs.«178137_j82291573391519_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Gcn.Region2

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The offset vector of a whole-buffer access is zero on both axes. -/
theorem zero_offsets : (![0, 0] : Fin 2 → Nat) = fun _ => 0 := funext fun a => by fin_cases a <;> rfl

/-- The tile's product at an index: entry (p, q) is the sum over k of x(p, k) · w(k, q) (the cast of the tile to its own
    shape and the rounding of the operands to the narrower format are the identity on the extended reals; the accumulator
    starts at zero). -/
theorem tile_product_apply (x : Vec Ideal S2000x64 .f32) (w : Vec Ideal S64x16 .f32) (p : Fin 2000) (q : Fin 16) :
    k2_pay1 x w (ix2 p q) = ∑ k : Fin 64, x (ix2 p k) * w (ix2 k q) := by
  unfold k2_pay1
  simp only [shapeCast_self]
  exact Cert.MatOps.matmul_plain_zero_apply (M := 2000) (K := 64) (N := 16) none _ _ p q

/-- A tile whose row p is row r of the array a, against a weight block that is the array b: entry (p, q) of the tile's
    product is entry (r, q) of the product of the arrays. -/
theorem tile_product_eq_mm (x : Vec Ideal S2000x64 .f32) (w : Vec Ideal S64x16 .f32)
    (a : S100000x64.Idx → EReal) (b : S64x16.Idx → EReal) (p : Fin 2000) (q : Fin 16) (r : Fin 100000)
    (hx : ∀ k : Fin 64, x (ix2 p k) = a (ix2 r k)) (hw : ∀ k : Fin 64, w (ix2 k q) = b (ix2 k q)) :
    k2_pay1 x w (ix2 p q) = Cert.Gcn.mm (M := 100000) (K := 64) (N := 16) a b (ix2 r q) := by
  rw [tile_product_apply]
  show _ = ∑ k : Fin 64, a (ix2 r k) * b (ix2 k q)
  exact Finset.sum_congr rfl fun k _ => by rw [hx k, hw k]

/-- The index maps over the grid: at point t the row-tile windows (left operand, result) sit at block (t, 0), the weight
    window at block (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays the region finds: row p of tile t is row
    2000·t + p of the left array, and the weight block is the whole right array. -/
theorem written_back_eq (c : Dev nD) (t : Fin cfg2.N) :
    (dat2 (F := Ideal) V c).flushed 2 t = ((cfg2.win 2).blk t).view.read (Elt Ideal) (Cert.Gcn.mm (M := 100000) (K := 64) (N := 16) (V c main_v47) (V c main_arg5)) := by
  show (cfg2.win 2).cut (grid2.coords t) ((dat2 V c).after 2 t) = _
  rw [after2_2]
  unfold out2_2
  rw [View.canon_unit_zero zero_offsets]
  simp only [View.ld_unit_zero (S := S2000x64) zero_offsets, View.ld_unit_zero (S := S64x16) zero_offsets]
  obtain ⟨e00, e01, e10, e11, e20, e21⟩ := block_indices t
  have ht : t.val < 50 := lt_of_lt_of_eq t.isLt N_2
  funext j
  obtain ⟨p, q, rfl⟩ : ∃ (p : Fin 2000) (q : Fin 16), j = ix2 p q := ⟨j 0, j 1, eq_ix2 j⟩
  have hp : p.val < 2000 := p.isLt
  have h2 : ((cfg2.win 2).blk t).view.emb (ix2 p q) = ix2 (⟨t.val * 2000 + p.val, by omega⟩ : Fin 100000) q := by
    funext a; apply Fin.ext
    match a with
    | ⟨0, _⟩ => show win2_2.index t (0 : Fin 2) * 2000 + 1 * p.val = t.val * 2000 + p.val; omega
    | ⟨1, _⟩ => show win2_2.index t (1 : Fin 2) * 16 + 1 * q.val = q.val; omega
  show k2_pay1 (iblk2 V c 0 t) (iblk2 V c 1 t) (ix2 p q) = Cert.Gcn.mm (M := 100000) (K := 64) (N := 16) (V c main_v47) (V c main_arg5) (((cfg2.win 2).blk t).view.emb (ix2 p q))
  rw [h2]
  refine tile_product_eq_mm _ _ _ _ p q _ (fun k => ?_) (fun k => ?_)
  · show V c main_v47 (((cfg2.win 0).blk t).view.emb (ix2 p k)) = V c main_v47 _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 64 + 1 * k.val = k.val; omega
  · show V c main_arg5 (((cfg2.win 1).blk t).view.emb (ix2 k q)) = V c main_arg5 _
    refine congrArg _ (funext fun a => Fin.ext ?_)
    match a with
    | ⟨0, _⟩ => show win2_1.index t (0 : Fin 2) * 64 + 1 * k.val = k.val; omega
    | ⟨1, _⟩ => show win2_1.index t (1 : Fin 2) * 16 + 1 * q.val = q.val; omega

/-- An index of the result array is in point t's tile iff each coordinate is in the tile's range on its axis. -/
theorem mem_tile (t : Fin cfg2.N) (i : S100000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v48).slice (win2_2.rect t)).set ↔ _
  rw [View.set_slice_whole, Rect.mem_set_unit]
  exact Iff.rfl

/-- The 50 row tiles cover the 100000 rows: row r is in the tile of point r / 2000. -/
theorem tiles_cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ : ∃ t : Fin cfg2.N, t.val = (i 0).val / 2000 :=
    ⟨⟨(i 0).val / 2000, by rw [show cfg2.N = 50 from N_2]; omega⟩, rfl⟩
  obtain ⟨_, _, _, _, e20, e21⟩ := block_indices t
  refine ⟨t, flush2_2 t, ?_⟩
  rw [mem_tile]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 16 ≤ (i 1).val ∧ (i 1).val < win2_2.index t (1 : Fin 2) * 16 + 16; omega

/-- The second matrix product's result array after the region. -/
theorem value (c : Dev nD) :
    (dat2 (F := Ideal) V c).arrAt 2 cfg2.N = Cert.Gcn.mm (M := 100000) (K := 64) (N := 16) (V c main_v47) (V c main_arg5) :=
  (dat2 (F := Ideal) V c).arrAt_eq_of_cover 2 _ (fun t _ => written_back_eq V c t) tiles_cover

end Cert.Gcn.Region2

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Region3.lean ====
/-
  Region 3 (bias, then the row-wise log-softmax, 50 row tiles of 2000): what its result array holds after the region.

  The body reads a tile a of 2000 rows and the one-row array b. With v = a + b (b added to every row) it takes each
  row's maximum m_p (the fold of max from the word of −∞ over the row's 16 entries), subtracts it, and subtracts the
  logarithm of the row's sum of exponentials: entry (p, q) is (v(p, q) − m_p) − log (Σ_k exp (v(p, k) − m_p)). That is the
  specification's bias-and-log-softmax of the tile itself. A row's maximum and sum read that row only, so the
  bias-and-log-softmax of a block of rows is the same block of the bias-and-log-softmax of the whole array: the point
  t writes back rows 2000·t … 2000·t + 1999 of the whole array's result, and the 50 tiles cover the 100000 rows.
-/
import proofs.«178137_j82291573391519_1_alg».proof.Proof.Gen.KernelIdeal.Frame
import proofs.«178137_j82291573391519_1_alg».proof.Proof.Spec
import proofs.«178137_j82291573391519_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Gcn.Region3

open Cert.KernelIdeal Cert.KernelIdeal.Gen Idealize.ShloMosaic Idealize.ShloMosaic.TcCoe Idealize.SL.Sem
open Idealize.ShloMosaic.ValueIdx
open Idealize.ShloMosaic.Pipeline (Dat)

/-! ## The body's payload at an entry -/

section Payload

variable (v : FVec Ideal S2000x16 .f32) (hr : S2000x16.Reduces [1] S2000) (hφ : FKind.Formats .f32)
  (hc : S2000.ShapeCasts S2000x1) (hb : S2000x1.Broadcasts S2000x16)

/-- The exponential of a vector, at an index. -/
theorem exp_apply {s : Shape} (x : FVec Ideal s .f32) (i : s.Idx) : exp x i = Ideal.exp (x i) := rfl
/-- The logarithm of a vector, at an index. -/
theorem log_apply {s : Shape} (x : FVec Ideal s .f32) (i : s.Idx) : log x i = Ideal.log (x i) := rfl

/-- The maximum over axis 1 at row p is the fold of max from the word of −∞ over the row's 16 entries: the inserted index
    (p, k) is `ix2 p k`, coordinate by coordinate. -/
theorem max_red (hacc : (0xFF800000#32 : BitVec 32) = 0xFF800000#32) (p : Fin 2000) :
    multiReduction (F := Ideal) .maximumf [1] S2000 v 0xFF800000#32 hr hφ hacc (ix1 p) = Cert.Gcn.rowMax (M := 2000) (N := 16) v p := by
  refine (Ideal.multiReduction_maximumf_single v 0xFF800000#32 hr hφ hacc (ix1 p)).trans ?_
  show (Finset.univ : Finset (Fin 16)).fold max (Ideal.ofBits .f32 0xFF800000#32) (fun k => v (hr.lift (ix1 p) k))
    = (Finset.univ : Finset (Fin 16)).fold max (Ideal.ofBits .f32 0xFF800000#32) (fun k => v (ix2 p k))
  refine congrArg (fun f => (Finset.univ : Finset (Fin 16)).fold max (Ideal.ofBits .f32 0xFF800000#32) f)
    (funext fun k => congrArg v (funext fun c => Fin.ext ?_))
  match c with
  | ⟨0, _⟩ => rfl
  | ⟨1, _⟩ => rfl

/-- The sum over axis 1 at row p is the sum of the row's 16 entries. -/
theorem add_red (hacc : (0x00000000#32 : BitVec 32) = 0x00000000#32) (p : Fin 2000) :
    multiReduction (F := Ideal) .add [1] S2000 v 0x00000000#32 hr hφ hacc (ix1 p) = ∑ k : Fin 16, v (ix2 p k) := by
  refine (Ideal.multiReduction_add_single v 0x00000000#32 hr hφ hacc (ix1 p)).trans ?_
  show ∑ k : Fin 16, v (hr.lift (ix1 p) k) = ∑ k : Fin 16, v (ix2 p k)
  refine Finset.sum_congr rfl fun k _ => congrArg v (funext fun c => Fin.ext ?_)
  match c with
  | ⟨0, _⟩ => rfl
  | ⟨1, _⟩ => rfl

/-- The row maximum as the body carries it on: the reduction cast to a column and broadcast back over the row. -/
theorem maxCol_apply (hacc : (0xFF800000#32 : BitVec 32) = 0xFF800000#32) (p : Fin 2000) (k : Fin 16) :
    broadcastTo S2000x16 (shapeCast S2000x1 (multiReduction (F := Ideal) .maximumf [1] S2000 v 0xFF800000#32 hr hφ hacc) hc) hb (ix2 p k)
      = Cert.Gcn.rowMax (M := 2000) (N := 16) v p := by
  rw [Keepdims.broadcastTo_a1_ab_apply _ hb p k 0, Keepdims.shapeCast_a_a1_apply _ hc p 0]
  exact max_red v hr hφ hacc p

/-- The logarithm of the row sum as the body carries it on: the reduction cast to a column, its logarithm, broadcast back. -/
theorem logSumCol_apply (hacc : (0x00000000#32 : BitVec 32) = 0x00000000#32) (p : Fin 2000) (k : Fin 16) :
    broadcastTo S2000x16 (log (shapeCast S2000x1 (multiReduction (F := Ideal) .add [1] S2000 v 0x00000000#32 hr hφ hacc) hc)) hb (ix2 p k)
      = Ideal.log (∑ k : Fin 16, v (ix2 p k)) := by
  rw [Keepdims.broadcastTo_a1_ab_apply _ hb p k 0, log_apply, Keepdims.shapeCast_a_a1_apply _ hc p 0]
  exact congrArg Ideal.log (add_red v hr hφ hacc p)

end Payload

/-- The tile with the row added to each of its rows, as the body builds it (each operand cast to its own shape, the row
    broadcast over the tile's rows). -/
theorem biased_eq (x0 : Vec Ideal S2000x16 .f32) (x1 : Vec Ideal S1x16 .f32) (h1 : S2000x16.ShapeCasts S2000x16)
    (h2 : S1x16.ShapeCasts S1x16) (h3 : S1x16.Broadcasts S2000x16) :
    addf (F := Ideal) (φ := .f32) (shapeCast S2000x16 x0 h1) (broadcastTo S2000x16 (shapeCast S1x16 x1 h2) h3)
      = Cert.Gcn.addRow (M := 2000) (N := 16) x0 x1 := by
  funext j
  obtain ⟨a, b, rfl⟩ : ∃ (a : Fin 2000) (b : Fin 16), j = ix2 a b := ⟨j 0, j 1, eq_ix2 j⟩
  rw [addf_apply, shapeCast_self, shapeCast_self, broadcastTo_1b_ab_apply]
  rfl

/-- THE PAYLOAD AT AN ENTRY: the body's result on a tile a and the row b is the bias-and-log-softmax of that tile. -/
theorem pay_apply (x0 : Vec Ideal S2000x16 .f32) (x1 : Vec Ideal S1x16 .f32) (p : Fin 2000) (q : Fin 16) :
    k3_pay1 x0 x1 (ix2 p q) = Cert.Gcn.biasLogSoftmax (M := 2000) (N := 16) x0 x1 (ix2 p q) := by
  unfold k3_pay1
  dsimp only
  rw [biased_eq, subf_apply, logSumCol_apply, subf_apply, maxCol_apply]
  show _ = (Cert.Gcn.addRow (M := 2000) (N := 16) x0 x1 (ix2 p q) - Cert.Gcn.rowMax (Cert.Gcn.addRow (M := 2000) (N := 16) x0 x1) p)
    - Ideal.log (∑ k : Fin 16, Ideal.exp (Cert.Gcn.addRow (M := 2000) (N := 16) x0 x1 (ix2 p k) - Cert.Gcn.rowMax (Cert.Gcn.addRow (M := 2000) (N := 16) x0 x1) p))
  refine congrArg (fun s => (Cert.Gcn.addRow (M := 2000) (N := 16) x0 x1 (ix2 p q) - Cert.Gcn.rowMax (Cert.Gcn.addRow (M := 2000) (N := 16) x0 x1) p) - Ideal.log s)
    (Finset.sum_congr rfl fun k _ => ?_)
  rw [exp_apply, subf_apply, maxCol_apply]

/-! ## A block of rows of the specification -/

/-- A row's maximum and its sum of exponentials read that row only: if row p of a is row r of A, then row p of the
    bias-and-log-softmax of a is row r of the bias-and-log-softmax of A (the same row b added to both). -/
theorem biasLogSoftmax_row {M M' N : Nat} (A : (⟨2, ![M, N]⟩ : Shape).Idx → EReal) (a : (⟨2, ![M', N]⟩ : Shape).Idx → EReal)
    (B : (⟨2, ![1, N]⟩ : Shape).Idx → EReal) (p : Fin M') (r : Fin M) (h : ∀ k : Fin N, a (ix2 p k) = A (ix2 r k)) (q : Fin N) :
    Cert.Gcn.biasLogSoftmax a B (ix2 p q) = Cert.Gcn.biasLogSoftmax A B (ix2 r q) := by
  have hrow : ∀ k : Fin N, Cert.Gcn.addRow a B (ix2 p k) = Cert.Gcn.addRow A B (ix2 r k) := fun k => by
    show a (ix2 p k) + B (ix2 (0 : Fin 1) k) = A (ix2 r k) + B (ix2 (0 : Fin 1) k)
    rw [h k]
  have hmax : Cert.Gcn.rowMax (Cert.Gcn.addRow a B) p = Cert.Gcn.rowMax (Cert.Gcn.addRow A B) r := by
    unfold Cert.Gcn.rowMax
    exact congrArg (fun f => (Finset.univ : Finset (Fin N)).fold max Cert.Gcn.negInfW f) (funext hrow)
  show (Cert.Gcn.addRow a B (ix2 p q) - Cert.Gcn.rowMax (Cert.Gcn.addRow a B) p)
      - Ideal.log (∑ k : Fin N, Ideal.exp (Cert.Gcn.addRow a B (ix2 p k) - Cert.Gcn.rowMax (Cert.Gcn.addRow a B) p))
    = (Cert.Gcn.addRow A B (ix2 r q) - Cert.Gcn.rowMax (Cert.Gcn.addRow A B) r)
      - Ideal.log (∑ k : Fin N, Ideal.exp (Cert.Gcn.addRow A B (ix2 r k) - Cert.Gcn.rowMax (Cert.Gcn.addRow A B) r))
  rw [hmax, hrow q]
  exact congrArg (fun s => _ - Ideal.log s) (Finset.sum_congr rfl fun k _ => by rw [hrow k])

/-- WHAT ONE POINT COMPUTES: if the loaded tile x0 holds rows 2000·n … 2000·n + 1999 of A and the loaded row x1 is B,
    the body's result at an entry of the tile is the bias-and-log-softmax of the whole array A at that entry's place. -/
theorem point_eq (A : S100000x16.Idx → EReal) (B : S1x16.Idx → EReal) (x0 : Vec Ideal S2000x16 .f32) (x1 : Vec Ideal S1x16 .f32)
    (n : Nat) (h0 : ∀ (p : Fin 2000) (k : Fin 16) (r : Fin 100000), r.val = n * 2000 + p.val → x0 (ix2 p k) = A (ix2 r k))
    (h1 : x1 = B) (j : S2000x16.Idx) (i : S100000x16.Idx) (hi0 : (i 0).val = n * 2000 + (j 0).val) (hi1 : (i 1).val = (j 1).val) :
    k3_pay1 x0 x1 j = Cert.Gcn.biasLogSoftmax (M := 100000) (N := 16) A B i := by
  obtain ⟨p, q, rfl⟩ : ∃ (p : Fin 2000) (q : Fin 16), j = ix2 p q := ⟨j 0, j 1, eq_ix2 j⟩
  obtain ⟨r, s, rfl⟩ : ∃ (r : Fin 100000) (s : Fin 16), i = ix2 r s := ⟨i 0, i 1, eq_ix2 i⟩
  obtain rfl : s = q := Fin.ext hi1
  subst h1
  rw [pay_apply]
  exact biasLogSoftmax_row A x0 x1 p r (fun k => h0 p k r hi0) s

/-! ## From the points' blocks to the array -/

/-- The printed zero offsets of the body's whole-buffer accesses are the zero function. -/
theorem zero_offsets : (![0, 0] : Fin 2 → Nat) = fun _ => 0 := funext fun a => by fin_cases a <;> rfl

/-- The printed index maps, decided over the 50 points: the tile window and the result window sit at block (t, 0), the
    one-row window at block (0, 0). -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

-- the TensorCore's buffer contents when the region is entered
variable (V : (c : Dev nD) → (b : Ref sig .tc) → Buf (Elt Ideal) ((c : Thread nD τ).loc b))

/-- The tile window's block at point t holds rows 2000·t … 2000·t + 1999 of its array. -/
theorem tile_read (c : Dev nD) (t : Fin cfg3.N) (p : Fin 2000) (k : Fin 16) (r : Fin 100000) (hr : r.val = t.val * 2000 + p.val) :
    (iblk3 V c 0 t : Vec Ideal S2000x16 .f32) (ix2 p k) = (V c main_v61 : S100000x16.Idx → EReal) (ix2 r k) := by
  obtain ⟨e0, e1, -, -, -, -⟩ := block_indices t
  unfold iblk3
  rw [View.read_apply]
  show V c main_v61 (((cfg3.win 0).blk t).view.emb (ix2 p k)) = V c main_v61 (ix2 r k)
  refine congrArg _ (funext fun a => Fin.ext ?_)
  match a with
  | ⟨0, _⟩ => show win3_0.index t (0 : Fin 2) * 2000 + 1 * p.val = r.val; omega
  | ⟨1, _⟩ => show win3_0.index t (1 : Fin 2) * 16 + 1 * k.val = k.val; omega

/-- The one-row window's block at every point is its whole array. -/
theorem row_read (c : Dev nD) (t : Fin cfg3.N) :
    (iblk3 V c 1 t : Vec Ideal S1x16 .f32) = (V c main_v62 : S1x16.Idx → EReal) := by
  obtain ⟨-, -, e2, e3, -, -⟩ := block_indices t
  funext j
  unfold iblk3
  rw [View.read_apply]
  show V c main_v62 (((cfg3.win 1).blk t).view.emb j) = V c main_v62 j
  refine congrArg _ (funext fun a => Fin.ext ?_)
  match a with
  | ⟨0, _⟩ => show win3_1.index t (0 : Fin 2) * 1 + 1 * (j 0).val = (j 0).val; omega
  | ⟨1, _⟩ => show win3_1.index t (1 : Fin 2) * 16 + 1 * (j 1).val = (j 1).val; omega

/-- WHAT POINT t WRITES BACK is block t of the bias-and-log-softmax of the two arrays as the region finds them. -/
theorem written_back_eq (c : Dev nD) (t : Fin cfg3.N) :
    (dat3 (F := Ideal) V c).flushed 2 t = ((cfg3.win 2).blk t).view.read (Elt Ideal)
      (Cert.Gcn.biasLogSoftmax (M := 100000) (N := 16) (V c main_v61) (V c main_v62)) := by
  show (cfg3.win 2).cut (grid3.coords t) ((dat3 V c).after 2 t) = _
  rw [after3_2]
  unfold out3_2
  rw [View.canon_unit_zero zero_offsets]
  simp only [View.ld_unit_zero (S := S2000x16) zero_offsets, View.ld_unit_zero (S := S1x16) zero_offsets]
  obtain ⟨-, -, -, -, e4, e5⟩ := block_indices t
  funext j
  show k3_pay1 (iblk3 V c 0 t) (iblk3 V c 1 t) j
    = Cert.Gcn.biasLogSoftmax (M := 100000) (N := 16) (V c main_v61) (V c main_v62) (((cfg3.win 2).blk t).view.emb j)
  refine point_eq _ _ _ _ t.val (tile_read V c t) (row_read V c t) j _ ?_ ?_
  · show win3_2.index t (0 : Fin 2) * 2000 + 1 * (j 0).val = t.val * 2000 + (j 0).val; omega
  · show win3_2.index t (1 : Fin 2) * 16 + 1 * (j 1).val = (j 1).val; omega

/-- An index of the array is in point t's block iff each coordinate is in the block's range on its axis. -/
theorem mem_row_tile (t : Fin cfg3.N) (i : S100000x16.Idx) :
    i ∈ ((cfg3.win 2).blk t).view.set ↔ ∀ a : Fin 2, win3_2.index t a * S2000x16.size a ≤ (i a).val
      ∧ (i a).val < win3_2.index t a * S2000x16.size a + S2000x16.size a := by
  show i ∈ ((View.whole main_v63).slice (win3_2.rect t)).set ↔ _
  rw [View.set_slice_whole, Rect.mem_set_unit]
  exact Iff.rfl

/-- The 50 tiles of 2000 rows cover the 100000 rows: row r is in the block of point r / 2000. -/
theorem row_tiles_cover (i : S100000x16.Idx) : ∃ t : Fin cfg3.N, (cfg3.win 2).flush t = true ∧ i ∈ ((cfg3.win 2).blk t).view.set := by
  have hN : cfg3.N = 50 := N_3
  have hi0 : (i 0).val < 100000 := (i 0).isLt
  have hi1 : (i 1).val < 16 := (i 1).isLt
  refine ⟨⟨(i 0).val / 2000, by rw [hN]; omega⟩, flush3_2 _, ?_⟩
  obtain ⟨-, -, -, -, e4, e5⟩ := block_indices ⟨(i 0).val / 2000, by rw [hN]; omega⟩
  rw [mem_row_tile]
  intro a
  match a with
  | ⟨0, _⟩ =>
    show win3_2.index _ (0 : Fin 2) * 2000 ≤ (i 0).val ∧ (i 0).val < win3_2.index _ (0 : Fin 2) * 2000 + 2000
    rw [e4]; show (i 0).val / 2000 * 2000 ≤ (i 0).val ∧ (i 0).val < (i 0).val / 2000 * 2000 + 2000; omega
  | ⟨1, _⟩ =>
    show win3_2.index _ (1 : Fin 2) * 16 ≤ (i 1).val ∧ (i 1).val < win3_2.index _ (1 : Fin 2) * 16 + 16
    rw [e5]; omega

/-- The bias-and-log-softmax region's result array. -/
theorem value (c : Dev nD) :
    (dat3 (F := Ideal) V c).arrAt 2 cfg3.N = Cert.Gcn.biasLogSoftmax (M := 100000) (N := 16) (V c main_v61) (V c main_v62) :=
  (dat3 (F := Ideal) V c).arrAt_eq_of_cover 2 _ (fun t _ => written_back_eq V c t) row_tiles_cover

end Cert.Gcn.Region3

end
-- ==== Proof.KFold.lean ====
/-
  The idealized kernel's result as one function of its arguments.

  The run's buffer contents are followed boundary by boundary, from the launch to the return: each host stretch leaves
  its named function of what it found (the graph's data, then each layer's aggregation), each region leaves its
  specification of the two arrays it reads (the products, the bias with the clamp, the bias with the log-softmax), and
  every buffer a later segment reads is left alone by the segments in between. Composed, the result buffer ends at
  `kernelValue` of the seven arguments.
-/
import proofs.«178137_j82291573391519_1_alg».proof.Proof.Gen.KernelIdeal.Frame
import proofs.«178137_j82291573391519_1_alg».proof.Proof.KStretch
import proofs.«178137_j82291573391519_1_alg».proof.Proof.Spec
import proofs.«178137_j82291573391519_1_alg».proof.Proof.Region0
import proofs.«178137_j82291573391519_1_alg».proof.Proof.Region1
import proofs.«178137_j82291573391519_1_alg».proof.Proof.Region2
import proofs.«178137_j82291573391519_1_alg».proof.Proof.Region3

noncomputable section

namespace Cert.KernelIdeal.FoldV

open Cert.KernelIdeal Cert.KernelIdeal.Gen Cert.KernelIdeal.Stretch
open Idealize.ShloMosaic Idealize.ShloMosaic.TcCoe Idealize.SL.Sem Idealize.ShloMosaic.StableHlo

/-- The first layer's output: the product with the first weight aggregated over the graph, the first bias, the clamp. -/
def layer1 (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x64, .f32⟩ : BufTy).Contents (Elt Ideal))
    (x4 : (⟨S64, .f32⟩ : BufTy).Contents (Elt Ideal)) : (⟨S100000x64, .f32⟩ : BufTy).Contents (Elt Ideal) :=
  Cert.Gcn.biasRelu (M := 100000) (N := 64) (agg64 (srcW x1) (dstW x1) (normOf x1 x2) (Cert.Gcn.mm (M := 100000) (K := 128) (N := 64) x0 x3)) (row64 x4)

/-- The whole forward pass: the second layer on the first layer's output, the second bias, the row-wise log-softmax. -/
def kernelValue (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x64, .f32⟩ : BufTy).Contents (Elt Ideal))
    (x4 : (⟨S64, .f32⟩ : BufTy).Contents (Elt Ideal)) (x5 : (⟨S64x16, .f32⟩ : BufTy).Contents (Elt Ideal))
    (x6 : (⟨S16, .f32⟩ : BufTy).Contents (Elt Ideal)) : (⟨S100000x16, .f32⟩ : BufTy).Contents (Elt Ideal) :=
  Cert.Gcn.biasLogSoftmax (M := 100000) (N := 16) (agg16 (srcW x1) (dstW x1) (normOf x1 x2) (Cert.Gcn.mm (M := 100000) (K := 64) (N := 16) (layer1 x0 x1 x2 x3 x4) x5)) (row16 x6)

variable (m : (ℓ : Loc nD τ sig) → Buf (Elt Ideal) ℓ) (ρ : Dev nD → PrngReg) (c : Dev nD)

/-! ## At the first region's entry -/

theorem w3_v3 : W3 m ρ c (Proc.devRef .tc main_v3) = (srcW (m ((c : Thread nD τ).loc main_arg1))) :=
  (ops02_v3 (W2 m ρ c)).trans ((ops01_v3 (W1 m ρ c)).trans (ops0_v3 (W0 m ρ c)))
theorem w3_v6 : W3 m ρ c (Proc.devRef .tc main_v6) = (dstW (m ((c : Thread nD τ).loc main_arg1))) :=
  (ops02_v6 (W2 m ρ c)).trans ((ops01_v6 (W1 m ρ c)).trans (ops0_v6 (W0 m ρ c)))
theorem w3_arg0 : W3 m ρ c (Proc.devRef .tc main_arg0) = (m ((c : Thread nD τ).loc main_arg0)) :=
  (ops02_arg0 (W2 m ρ c)).trans ((ops01_arg0 (W1 m ρ c)).trans (ops0_arg0 (W0 m ρ c)))
theorem w3_arg3 : W3 m ρ c (Proc.devRef .tc main_arg3) = (m ((c : Thread nD τ).loc main_arg3)) :=
  (ops02_arg3 (W2 m ρ c)).trans ((ops01_arg3 (W1 m ρ c)).trans (ops0_arg3 (W0 m ρ c)))
theorem w3_arg4 : W3 m ρ c (Proc.devRef .tc main_arg4) = (m ((c : Thread nD τ).loc main_arg4)) :=
  (ops02_arg4 (W2 m ρ c)).trans ((ops01_arg4 (W1 m ρ c)).trans (ops0_arg4 (W0 m ρ c)))
theorem w3_arg5 : W3 m ρ c (Proc.devRef .tc main_arg5) = (m ((c : Thread nD τ).loc main_arg5)) :=
  (ops02_arg5 (W2 m ρ c)).trans ((ops01_arg5 (W1 m ρ c)).trans (ops0_arg5 (W0 m ρ c)))
theorem w3_arg6 : W3 m ρ c (Proc.devRef .tc main_arg6) = (m ((c : Thread nD τ).loc main_arg6)) :=
  (ops02_arg6 (W2 m ρ c)).trans ((ops01_arg6 (W1 m ρ c)).trans (ops0_arg6 (W0 m ρ c)))
set_option backward.isDefEq.respectTransparency.types false in
theorem w3_v31 : W3 m ρ c (Proc.devRef .tc main_v31) = (normOf (m ((c : Thread nD τ).loc main_arg1)) (m ((c : Thread nD τ).loc main_arg2))) := by
  refine (ops02_v31 (W2 m ρ c)).trans ?_
  have e15 : W2 m ρ c (Proc.devRef .tc main_v15) = pickW (posW (dstW (m ((c : Thread nD τ).loc main_arg1))) (ewW (m ((c : Thread nD τ).loc main_arg2)))) (rsqW (dstW (m ((c : Thread nD τ).loc main_arg1))) (ewW (m ((c : Thread nD τ).loc main_arg2)))) (constant (F := Ideal) S_ .f32 0x00000000#32) := by
    refine (ops01_v15 (W1 m ρ c)).trans ?_
    show pickW (after hostOps0 (W0 m ρ c) (Proc.devRef .tc main_v13)) (after hostOps0 (W0 m ρ c) (Proc.devRef .tc main_v14)) (after hostOps0 (W0 m ρ c) (Proc.devRef .tc main_cst_2)) = _
    rw [ops0_v13, ops0_v14, ops0_cst_2]
  have e3 : W2 m ρ c (Proc.devRef .tc main_v3) = (srcW (m ((c : Thread nD τ).loc main_arg1))) := (ops01_v3 (W1 m ρ c)).trans (ops0_v3 (W0 m ρ c))
  have e6 : W2 m ρ c (Proc.devRef .tc main_v6) = (dstW (m ((c : Thread nD τ).loc main_arg1))) := (ops01_v6 (W1 m ρ c)).trans (ops0_v6 (W0 m ρ c))
  have e8 : W2 m ρ c (Proc.devRef .tc main_v8) = ewW (m ((c : Thread nD τ).loc main_arg2)) := (ops01_v8 (W1 m ρ c)).trans (ops0_v8 (W0 m ρ c))
  exact congr (congr (congr (congrArg normW e15) e3) e6) e8

/-! ## After the first product -/

theorem w4_v32 : W4 m ρ c (Proc.devRef .tc main_v32) = (Cert.Gcn.mm (M := 100000) (K := 128) (N := 64) (m ((c : Thread nD τ).loc main_arg0)) (m ((c : Thread nD τ).loc main_arg3))) :=
  (W4_arr m ρ c 2).trans ((Cert.Gcn.Region0.value (V3 m ρ) c).trans (congr (congrArg (Cert.Gcn.mm (M := 100000) (K := 128) (N := 64)) (w3_arg0 m ρ c)) (w3_arg3 m ρ c)))
theorem w4_v3 : W4 m ρ c (Proc.devRef .tc main_v3) = (srcW (m ((c : Thread nD τ).loc main_arg1))) :=
  (W4_of_ne m ρ c main_v3 (by decide)).trans (w3_v3 m ρ c)
theorem w4_v6 : W4 m ρ c (Proc.devRef .tc main_v6) = (dstW (m ((c : Thread nD τ).loc main_arg1))) :=
  (W4_of_ne m ρ c main_v6 (by decide)).trans (w3_v6 m ρ c)
theorem w4_v31 : W4 m ρ c (Proc.devRef .tc main_v31) = (normOf (m ((c : Thread nD τ).loc main_arg1)) (m ((c : Thread nD τ).loc main_arg2))) :=
  (W4_of_ne m ρ c main_v31 (by decide)).trans (w3_v31 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)

/-! ## At the second region's entry: the first layer's aggregation -/

theorem w5_v45 : W5 m ρ c (Proc.devRef .tc main_v45) = (agg64 (srcW (m ((c : Thread nD τ).loc main_arg1))) (dstW (m ((c : Thread nD τ).loc main_arg1))) (normOf (m ((c : Thread nD τ).loc main_arg1)) (m ((c : Thread nD τ).loc main_arg2))) (Cert.Gcn.mm (M := 100000) (K := 128) (N := 64) (m ((c : Thread nD τ).loc main_arg0)) (m ((c : Thread nD τ).loc main_arg3)))) :=
  (ops1_v45 (W4 m ρ c)).trans (congr (congr (congr (congrArg agg64 (w4_v3 m ρ c)) (w4_v6 m ρ c)) (w4_v31 m ρ c)) (w4_v32 m ρ c))
theorem w5_v46 : W5 m ρ c (Proc.devRef .tc main_v46) = row64 (m ((c : Thread nD τ).loc main_arg4)) :=
  (ops1_v46 (W4 m ρ c)).trans (congrArg row64 (w4_arg4 m ρ c))
theorem w5_v3 : W5 m ρ c (Proc.devRef .tc main_v3) = (srcW (m ((c : Thread nD τ).loc main_arg1))) :=
  (ops1_v3 (W4 m ρ c)).trans (w4_v3 m ρ c)
theorem w5_v6 : W5 m ρ c (Proc.devRef .tc main_v6) = (dstW (m ((c : Thread nD τ).loc main_arg1))) :=
  (ops1_v6 (W4 m ρ c)).trans (w4_v6 m ρ c)
theorem w5_v31 : W5 m ρ c (Proc.devRef .tc main_v31) = (normOf (m ((c : Thread nD τ).loc main_arg1)) (m ((c : Thread nD τ).loc main_arg2))) :=
  (ops1_v31 (W4 m ρ c)).trans (w4_v31 m ρ c)
theorem w5_arg5 : W5 m ρ c (Proc.devRef .tc main_arg5) = (m ((c : Thread nD τ).loc main_arg5)) :=
  (ops1_arg5 (W4 m ρ c)).trans (w4_arg5 m ρ c)
theorem w5_arg6 : W5 m ρ c (Proc.devRef .tc main_arg6) = (m ((c : Thread nD τ).loc main_arg6)) :=
  (ops1_arg6 (W4 m ρ c)).trans (w4_arg6 m ρ c)

/-! ## After the bias and the clamp, and after the second product -/

theorem w6_v47 : W6 m ρ c (Proc.devRef .tc main_v47) = layer1 (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 2).trans ((Cert.Gcn.Region1.value (V5 m ρ) c).trans (congr (congrArg (Cert.Gcn.biasRelu (M := 100000) (N := 64)) (w5_v45 m ρ c)) (w5_v46 m ρ c)))
theorem w6_v3 : W6 m ρ c (Proc.devRef .tc main_v3) = (srcW (m ((c : Thread nD τ).loc main_arg1))) :=
  (W6_of_ne m ρ c main_v3 (by decide)).trans (w5_v3 m ρ c)
theorem w6_v6 : W6 m ρ c (Proc.devRef .tc main_v6) = (dstW (m ((c : Thread nD τ).loc main_arg1))) :=
  (W6_of_ne m ρ c main_v6 (by decide)).trans (w5_v6 m ρ c)
theorem w6_v31 : W6 m ρ c (Proc.devRef .tc main_v31) = (normOf (m ((c : Thread nD τ).loc main_arg1)) (m ((c : Thread nD τ).loc main_arg2))) :=
  (W6_of_ne m ρ c main_v31 (by decide)).trans (w5_v31 m ρ c)
theorem w6_arg5 : W6 m ρ c (Proc.devRef .tc main_arg5) = (m ((c : Thread nD τ).loc main_arg5)) :=
  (W6_of_ne m ρ c main_arg5 (by decide)).trans (w5_arg5 m ρ c)
theorem w6_arg6 : W6 m ρ c (Proc.devRef .tc main_arg6) = (m ((c : Thread nD τ).loc main_arg6)) :=
  (W6_of_ne m ρ c main_arg6 (by decide)).trans (w5_arg6 m ρ c)
theorem w7_v48 : W7 m ρ c (Proc.devRef .tc main_v48) = (Cert.Gcn.mm (M := 100000) (K := 64) (N := 16) (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) :=
  (W7_arr m ρ c 2).trans ((Cert.Gcn.Region2.value (V6 m ρ) c).trans (congr (congrArg (Cert.Gcn.mm (M := 100000) (K := 64) (N := 16)) (w6_v47 m ρ c)) (w6_arg5 m ρ c)))
theorem w7_v3 : W7 m ρ c (Proc.devRef .tc main_v3) = (srcW (m ((c : Thread nD τ).loc main_arg1))) :=
  (W7_of_ne m ρ c main_v3 (by decide)).trans (w6_v3 m ρ c)
theorem w7_v6 : W7 m ρ c (Proc.devRef .tc main_v6) = (dstW (m ((c : Thread nD τ).loc main_arg1))) :=
  (W7_of_ne m ρ c main_v6 (by decide)).trans (w6_v6 m ρ c)
theorem w7_v31 : W7 m ρ c (Proc.devRef .tc main_v31) = (normOf (m ((c : Thread nD τ).loc main_arg1)) (m ((c : Thread nD τ).loc main_arg2))) :=
  (W7_of_ne m ρ c main_v31 (by decide)).trans (w6_v31 m ρ c)
theorem w7_arg6 : W7 m ρ c (Proc.devRef .tc main_arg6) = (m ((c : Thread nD τ).loc main_arg6)) :=
  (W7_of_ne m ρ c main_arg6 (by decide)).trans (w6_arg6 m ρ c)

/-! ## At the last region's entry, and the result -/

theorem w8_v61 : W8 m ρ c (Proc.devRef .tc main_v61) = agg16 (srcW (m ((c : Thread nD τ).loc main_arg1))) (dstW (m ((c : Thread nD τ).loc main_arg1))) (normOf (m ((c : Thread nD τ).loc main_arg1)) (m ((c : Thread nD τ).loc main_arg2))) (Cert.Gcn.mm (M := 100000) (K := 64) (N := 16) (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) :=
  (ops3_v61 (W7 m ρ c)).trans (congr (congr (congr (congrArg agg16 (w7_v3 m ρ c)) (w7_v6 m ρ c)) (w7_v31 m ρ c)) (w7_v48 m ρ c))
theorem w8_v62 : W8 m ρ c (Proc.devRef .tc main_v62) = row16 (m ((c : Thread nD τ).loc main_arg6)) :=
  (ops3_v62 (W7 m ρ c)).trans (congrArg row16 (w7_arg6 m ρ c))
/-- The result buffer at the end of the run is the forward pass of the arguments. -/
theorem w9_v63 : W9 m ρ c (Proc.devRef .tc main_v63) = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans ((Cert.Gcn.Region3.value (V8 m ρ) c).trans (congr (congrArg (Cert.Gcn.biasLogSoftmax (M := 100000) (N := 16)) (w8_v61 m ρ c)) (w8_v62 m ρ c)))

end Cert.KernelIdeal.FoldV

end
-- ==== Proof.RefStages.lean ====
/-
  The reference's four dense node-wise stages, as it computes them on whole arrays: the two matrix products as
  general dots, the first bias added (a vector made a one-row matrix, then repeated down the rows) with the maximum
  with zero, and the second bias added with the row-wise log-softmax in its stable form — the row maximum (a max-reduce
  from −∞, joined once more with −∞) subtracted, then the logarithm of the row's sum of exponentials subtracted.
-/
import proofs.«178137_j82291573391519_1_alg».proof.Proof.Gen.ReferenceIdeal

noncomputable section

namespace Cert.ReferenceIdeal.Stages

open Cert.ReferenceIdeal Cert.ReferenceIdeal.Gen Idealize.ShloMosaic Idealize.ShloMosaic.TcCoe

variable {F : FTy → Type} [FloatOps F]

/-- The first product: node features by the first weight. -/
def dot1 (a : (⟨S100000x128, .f32⟩ : BufTy).Contents (Elt F)) (b : (⟨S128x64, .f32⟩ : BufTy).Contents (Elt F)) : (⟨S100000x64, .f32⟩ : BufTy).Contents (Elt F) :=
  Host.dotGeneral dot_S100000x128_S128x64_S100000x64_1_0_0_1_n_n none a b

/-- The second product: hidden features by the second weight. -/
def dot2 (a : (⟨S100000x64, .f32⟩ : BufTy).Contents (Elt F)) (b : (⟨S64x16, .f32⟩ : BufTy).Contents (Elt F)) : (⟨S100000x16, .f32⟩ : BufTy).Contents (Elt F) :=
  Host.dotGeneral dot_S100000x64_S64x16_S100000x16_1_0_0_1_n_n none a b

/-- The first bias added to every row, then the maximum with zero. -/
def biasClamp (a : (⟨S100000x64, .f32⟩ : BufTy).Contents (Elt F)) (x4 : (⟨S64, .f32⟩ : BufTy).Contents (Elt F)) : (⟨S100000x64, .f32⟩ : BufTy).Contents (Elt F) :=
  maximumf (addf a (broadcastInDim S100000x64 ![0, 1] bcast_S1x64_S100000x64_0_1 (broadcastInDim S1x64 ![1] bcast_S64_S1x64_1 x4))) (broadcastInDim S100000x64 ![] bcast_S_S100000x64 (constant S_ .f32 0x00000000#32))

/-- The second bias added to every row. -/
def addBias16 (a : (⟨S100000x16, .f32⟩ : BufTy).Contents (Elt F)) (x6 : (⟨S16, .f32⟩ : BufTy).Contents (Elt F)) : (⟨S100000x16, .f32⟩ : BufTy).Contents (Elt F) :=
  addf a (broadcastInDim S100000x16 ![0, 1] bcast_S1x16_S100000x16_0_1 (broadcastInDim S1x16 ![1] bcast_S16_S1x16_1 x6))

/-- A matrix with each row's maximum subtracted from the row. -/
def rowShift (v : (⟨S100000x16, .f32⟩ : BufTy).Contents (Elt F)) : (⟨S100000x16, .f32⟩ : BufTy).Contents (Elt F) :=
  subf v (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf v (constant S_ .f32 0xFF800000#32) reducesTo_S100000x16_S100000_d1 h_S_))))

/-- The row-wise log-softmax: the shifted matrix less the logarithm of each row's sum of exponentials. -/
def lsm (v : (⟨S100000x16, .f32⟩ : BufTy).Contents (Elt F)) : (⟨S100000x16, .f32⟩ : BufTy).Contents (Elt F) :=
  subf (rowShift v) (broadcastInDim S100000x16 ![0, 1] bcast_S100000x1_S100000x16_0_1 (Host.log (broadcastInDim S100000x1 ![0] bcast_S100000_S100000x1_0 (Host.reduceAdd (Host.exp (rowShift v)) (constant S_ .f32 0x00000000#32) reducesTo_S100000x16_S100000_d1 h_S_))))

/-- The second bias, then the row-wise log-softmax. -/
def biasLsm (a : (⟨S100000x16, .f32⟩ : BufTy).Contents (Elt F)) (x6 : (⟨S16, .f32⟩ : BufTy).Contents (Elt F)) : (⟨S100000x16, .f32⟩ : BufTy).Contents (Elt F) :=
  lsm (addBias16 a x6)

end Cert.ReferenceIdeal.Stages

end
-- ==== Proof.LibTypedRef.lean ====
import Idealize.ShloMosaic.Lib.StableHlo

/-!
# A typed reference's two transports cancel

A typed reference `x : TRef sig T` carries contents of the value type `T` to its buffer's own type (`toBuf`) and
back (`ofBuf`), along the equation between the two types. Going there and back is the identity, whatever proof of
the equation the reference holds. A fold through a line of operations on typed references leaves one such pair
around every intermediate value; rewriting with this lemma removes them, so that the remaining term can be compared
with a plain one without unfolding any transport.
-/

namespace Cert.Lib.TypedRef

open Idealize.ShloMosaic Idealize.ShloMosaic.StableHlo

/-- Contents carried to a typed reference's buffer and back are the contents. -/
theorem ofBuf_toBuf {Val : EltTy → Type} {sig : RefSig} {T : BufTy} (x : TRef sig T) (v : T.Contents Val) :
    x.ofBuf (x.toBuf v) = v := by
  obtain ⟨r, rfl, _, _⟩ := x; rfl

end Cert.Lib.TypedRef
-- ==== Proof.RefSeg.lean ====
/-
  The reference program, cut into eleven segments, each read for ANY contents `W` of the buffers it starts from.

  The segments follow the computation: the index vectors and weights with the self loops appended; the first product;
  the node factors (inverse square roots of the positive weighted in-degrees); the edges' normalisations; the first
  layer's aggregation; the first bias with the clamp; the second product; the node factors and the normalisations once
  more (the reference computes them per layer); the second layer's aggregation; the second bias with the log-softmax.
  Each segment leaves at its result the named function — the same functions the kernel's host side computes, or the
  reference's dense stage — of what it found at the buffers it reads.
-/
import proofs.«178137_j82291573391519_1_alg».proof.Proof.RunP
import proofs.«178137_j82291573391519_1_alg».proof.Proof.KStretch
import proofs.«178137_j82291573391519_1_alg».proof.Proof.RefStages
import proofs.«178137_j82291573391519_1_alg».proof.Proof.LibTypedRef

noncomputable section

namespace Cert.ReferenceIdeal.Seg

open Cert.ReferenceIdeal Cert.ReferenceIdeal.Gen Idealize.ShloMosaic Idealize.ShloMosaic.TcCoe Idealize.SL.Sem Idealize.ShloMosaic.StableHlo
open Cert.KernelIdeal.Stretch (srcW dstW ewW posW rsqW pickW normW agg64 agg16)
open Cert.ReferenceIdeal.Stages

variable {F : FTy → Type} [FloatOps F]

/-- Operations 0 … 9 of @main. -/
abbrev seg1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- Operations 10 … 10 of @main. -/
abbrev seg2 : List (HloOp τ sig (Elt F)) :=
  [ binary main_arg0 main_arg3 main_v9 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Operations 11 … 22 of @main. -/
abbrev seg3 : List (HloOp τ sig (Elt F)) :=
  [ nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v6 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v8 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v15) (TRef.of (T := ⟨S100000, .f32⟩) main_call0_v1) (TRef.of (T := ⟨S100000, .f32⟩) main_v16) select ]

/-- Operations 23 … 42 of @main. -/
abbrev seg4 : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v8 main_v24 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v25 (broadcastInDim S1700000 ![] bcast_S_S1700000 : (⟨S_, .i32⟩ : BufTy).Contents (Elt F) → (⟨S1700000, .i32⟩ : BufTy).Contents (Elt F)),
    binary main_v6 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v27 (broadcastInDim S1700000 ![] bcast_S_S1700000 : (⟨S_, .i32⟩ : BufTy).Contents (Elt F) → (⟨S1700000, .i32⟩ : BufTy).Contents (Elt F)),
    binary main_v6 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v6 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)) ]

/-- Operations 43 … 58 of @main. -/
abbrev seg5 : List (HloOp τ sig (Elt F)) :=
  [ unary main_v32 main_v33 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v34 (broadcastInDim S1700000 ![] bcast_S_S1700000 : (⟨S_, .i32⟩ : BufTy).Contents (Elt F) → (⟨S1700000, .i32⟩ : BufTy).Contents (Elt F)),
    binary main_v3 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v36 (broadcastInDim S1700000 ![] bcast_S_S1700000 : (⟨S_, .i32⟩ : BufTy).Contents (Elt F) → (⟨S1700000, .i32⟩ : BufTy).Contents (Elt F)),
    binary main_v3 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v3 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v9 main_v39 main_v40 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v33 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v41 main_v40 main_v42 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Operations 59 … 64 of @main. -/
abbrev seg6 : List (HloOp τ sig (Elt F)) :=
  [ unary main_arg4 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf ]

/-- Operations 65 … 65 of @main. -/
abbrev seg7 : List (HloOp τ sig (Elt F)) :=
  [ binary main_v49 main_arg5 main_v50 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

/-- Operations 66 … 77 of @main. -/
abbrev seg8 : List (HloOp τ sig (Elt F)) :=
  [ nullary main_cst_9 (constant S_ .f32 0x00000000#32),
    unary main_cst_9 main_v51 (broadcastInDim S100000 ![] bcast_S_S100000 : (⟨S_, .f32⟩ : BufTy).Contents (Elt F) → (⟨S100000, .f32⟩ : BufTy).Contents (Elt F)),
    unary main_v6 main_v52 (broadcastInDim S1700000x1 ![0] bcast_S1700000_S1700000x1_0 : (⟨S1700000, .i32⟩ : BufTy).Contents (Elt F) → (⟨S1700000x1, .i32⟩ : BufTy).Contents (Elt F)),
    ternary main_v51 main_v52 main_v8 main_v53 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_10 (constant S_ .f32 0x00000000#32),
    unary main_cst_10 main_v54 (broadcastInDim S100000 ![] bcast_S_S100000 : (⟨S_, .f32⟩ : BufTy).Contents (Elt F) → (⟨S100000, .f32⟩ : BufTy).Contents (Elt F)),
    binary main_v53 main_v54 main_v55 (cmpf .ogt : (⟨S100000, .f32⟩ : BufTy).Contents (Elt F) → (⟨S100000, .f32⟩ : BufTy).Contents (Elt F) → (⟨S100000, .i1⟩ : BufTy).Contents (Elt F)),
    unary main_v53 main_v56 (Host.rsqrt : (⟨S100000, .f32⟩ : BufTy).Contents (Elt F) → (⟨S100000, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v55) (TRef.of (T := ⟨S100000, .f32⟩) main_v56) (TRef.of (T := ⟨S100000, .f32⟩) main_call2_v1) (TRef.of (T := ⟨S100000, .f32⟩) main_v57) select ]

/-- Operations 78 … 97 of @main. -/
abbrev seg9 : List (HloOp τ sig (Elt F)) :=
  [ nullary main_c_12 (constantI S_ 32 0#32),
    unary main_c_12 main_v58 (broadcastInDim S1700000 ![] bcast_S_S1700000 : (⟨S_, .i32⟩ : BufTy).Contents (Elt F) → (⟨S1700000, .i32⟩ : BufTy).Contents (Elt F)),
    binary main_v3 main_v58 main_v59 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v60 (broadcastInDim S1700000 ![] bcast_S_S1700000 : (⟨S_, .i32⟩ : BufTy).Contents (Elt F) → (⟨S1700000, .i32⟩ : BufTy).Contents (Elt F)),
    binary main_v3 main_v60 main_v61 (addi : (⟨S1700000, .i32⟩ : BufTy).Contents (Elt F) → (⟨S1700000, .i32⟩ : BufTy).Contents (Elt F) → (⟨S1700000, .i32⟩ : BufTy).Contents (Elt F)),
    ternary main_v59 main_v61 main_v3 main_v62 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v62 main_v63 (broadcastInDim S1700000x1 ![0] bcast_S1700000_S1700000x1_0 : (⟨S1700000, .i32⟩ : BufTy).Contents (Elt F) → (⟨S1700000x1, .i32⟩ : BufTy).Contents (Elt F)),
    binary main_v57 main_v63 main_v64 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v64 main_v8 main_v65 (mulf : (⟨S1700000, .f32⟩ : BufTy).Contents (Elt F) → (⟨S1700000, .f32⟩ : BufTy).Contents (Elt F) → (⟨S1700000, .f32⟩ : BufTy).Contents (Elt F)),
    nullary main_c_14 (constantI S_ 32 0#32),
    unary main_c_14 main_v66 (broadcastInDim S1700000 ![] bcast_S_S1700000 : (⟨S_, .i32⟩ : BufTy).Contents (Elt F) → (⟨S1700000, .i32⟩ : BufTy).Contents (Elt F)),
    binary main_v6 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v68 (broadcastInDim S1700000 ![] bcast_S_S1700000 : (⟨S_, .i32⟩ : BufTy).Contents (Elt F) → (⟨S1700000, .i32⟩ : BufTy).Contents (Elt F)),
    binary main_v6 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v6 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v57 main_v71 main_v72 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v65 main_v72 main_v73 (mulf : (⟨S1700000, .f32⟩ : BufTy).Contents (Elt F) → (⟨S1700000, .f32⟩ : BufTy).Contents (Elt F) → (⟨S1700000, .f32⟩ : BufTy).Contents (Elt F)) ]

/-- Operations 98 … 113 of @main. -/
abbrev seg10 : List (HloOp τ sig (Elt F)) :=
  [ unary main_v73 main_v74 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v75 (broadcastInDim S1700000 ![] bcast_S_S1700000 : (⟨S_, .i32⟩ : BufTy).Contents (Elt F) → (⟨S1700000, .i32⟩ : BufTy).Contents (Elt F)),
    binary main_v3 main_v75 main_v76 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v77 (broadcastInDim S1700000 ![] bcast_S_S1700000 : (⟨S_, .i32⟩ : BufTy).Contents (Elt F) → (⟨S1700000, .i32⟩ : BufTy).Contents (Elt F)),
    binary main_v3 main_v77 main_v78 (addi : (⟨S1700000, .i32⟩ : BufTy).Contents (Elt F) → (⟨S1700000, .i32⟩ : BufTy).Contents (Elt F) → (⟨S1700000, .i32⟩ : BufTy).Contents (Elt F)),
    ternary main_v76 main_v78 main_v3 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v79 main_v80 (broadcastInDim S1700000x1 ![0] bcast_S1700000_S1700000x1_0 : (⟨S1700000, .i32⟩ : BufTy).Contents (Elt F) → (⟨S1700000x1, .i32⟩ : BufTy).Contents (Elt F)),
    binary main_v50 main_v80 main_v81 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v74 main_v82 (broadcastInDim S1700000x16 ![0, 1] bcast_S1700000x1_S1700000x16_0_1 : (⟨S1700000x1, .f32⟩ : BufTy).Contents (Elt F) → (⟨S1700000x16, .f32⟩ : BufTy).Contents (Elt F)),
    binary main_v82 main_v81 main_v83 (mulf : (⟨S1700000x16, .f32⟩ : BufTy).Contents (Elt F) → (⟨S1700000x16, .f32⟩ : BufTy).Contents (Elt F) → (⟨S1700000x16, .f32⟩ : BufTy).Contents (Elt F)),
    nullary main_cst_18 (constant S_ .f32 0x00000000#32),
    unary main_cst_18 main_v84 (broadcastInDim S100000x16 ![] bcast_S_S100000x16 : (⟨S_, .f32⟩ : BufTy).Contents (Elt F) → (⟨S100000x16, .f32⟩ : BufTy).Contents (Elt F)),
    unary main_v6 main_v85 (broadcastInDim S1700000x1 ![0] bcast_S1700000_S1700000x1_0 : (⟨S1700000, .i32⟩ : BufTy).Contents (Elt F) → (⟨S1700000x1, .i32⟩ : BufTy).Contents (Elt F)),
    ternary main_v84 main_v85 main_v83 main_v86 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) ]

/-- Operations 114 … 131 of @main. -/
abbrev seg11 : List (HloOp τ sig (Elt F)) :=
  [ unary main_arg6 main_v87 (broadcastInDim S1x16 ![1] bcast_S16_S1x16_1 : (⟨S16, .f32⟩ : BufTy).Contents (Elt F) → (⟨S1x16, .f32⟩ : BufTy).Contents (Elt F)),
    unary main_v87 main_v88 (broadcastInDim S100000x16 ![0, 1] bcast_S1x16_S100000x16_0_1 : (⟨S1x16, .f32⟩ : BufTy).Contents (Elt F) → (⟨S100000x16, .f32⟩ : BufTy).Contents (Elt F)),
    binary main_v86 main_v88 main_v89 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call3_cst) (constant S_ .f32 0xFF800000#32),
    TRef.binary (TRef.of (T := ⟨S100000x16, .f32⟩) main_v89) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v89) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v90) subf ]

/-- The segments, in order, are the program's operations. -/
theorem ops_eq : Cert.ReferenceIdeal.ValueP.ops (F := F) = seg1 ++ (seg2 ++ (seg3 ++ (seg4 ++ (seg5 ++ (seg6 ++ (seg7 ++ (seg8 ++ (seg9 ++ (seg10 ++ seg11))))))))) := rfl

variable (W : Valuation τ sig (Elt F))

theorem seg1_v3 : after seg1 W (Proc.devRef .tc main_v3) = srcW (W (Proc.devRef .tc main_arg1)) := by
  dsimp only [seg1]; after_results <;> rfl
theorem seg1_v6 : after seg1 W (Proc.devRef .tc main_v6) = dstW (W (Proc.devRef .tc main_arg1)) := by
  dsimp only [seg1]; after_results <;> rfl
theorem seg1_v8 : after seg1 W (Proc.devRef .tc main_v8) = ewW (W (Proc.devRef .tc main_arg2)) := by
  dsimp only [seg1]; after_results <;> rfl
theorem seg2_v9 : after seg2 W (Proc.devRef .tc main_v9) = dot1 (W (Proc.devRef .tc main_arg0)) (W (Proc.devRef .tc main_arg3)) := by
  dsimp only [seg2]; after_results <;> rfl
theorem seg3_v16 : after seg3 W (Proc.devRef .tc main_v16) = pickW (posW (W (Proc.devRef .tc main_v6)) (W (Proc.devRef .tc main_v8))) (rsqW (W (Proc.devRef .tc main_v6)) (W (Proc.devRef .tc main_v8))) (constant S_ .f32 0x00000000#32) := by
  dsimp only [seg3]; after_results <;> rfl
set_option maxHeartbeats 4000000 in
theorem seg4_v32 : after seg4 W (Proc.devRef .tc main_v32) = normW (W (Proc.devRef .tc main_v16)) (W (Proc.devRef .tc main_v3)) (W (Proc.devRef .tc main_v6)) (W (Proc.devRef .tc main_v8)) := by
  dsimp only [seg4]; after_results_simp <;> rfl
set_option maxHeartbeats 4000000 in
theorem seg5_v45 : after seg5 W (Proc.devRef .tc main_v45) = agg64 (W (Proc.devRef .tc main_v3)) (W (Proc.devRef .tc main_v6)) (W (Proc.devRef .tc main_v32)) (W (Proc.devRef .tc main_v9)) := by
  dsimp only [seg5]; after_results_simp <;> rfl
theorem seg6_v49 : after seg6 W (Proc.devRef .tc main_v49) = biasClamp (W (Proc.devRef .tc main_v45)) (W (Proc.devRef .tc main_arg4)) := by
  dsimp only [seg6]; after_results <;> rfl
theorem seg7_v50 : after seg7 W (Proc.devRef .tc main_v50) = dot2 (W (Proc.devRef .tc main_v49)) (W (Proc.devRef .tc main_arg5)) := by
  dsimp only [seg7]; after_results <;> rfl
theorem seg8_v57 : after seg8 W (Proc.devRef .tc main_v57) = pickW (posW (W (Proc.devRef .tc main_v6)) (W (Proc.devRef .tc main_v8))) (rsqW (W (Proc.devRef .tc main_v6)) (W (Proc.devRef .tc main_v8))) (constant S_ .f32 0x00000000#32) := by
  dsimp only [seg8]; after_results <;> rfl
set_option maxHeartbeats 4000000 in
theorem seg9_v73 : after seg9 W (Proc.devRef .tc main_v73) = normW (W (Proc.devRef .tc main_v57)) (W (Proc.devRef .tc main_v3)) (W (Proc.devRef .tc main_v6)) (W (Proc.devRef .tc main_v8)) := by
  dsimp only [seg9]; after_results_simp <;> rfl
set_option maxHeartbeats 4000000 in
theorem seg10_v86 : after seg10 W (Proc.devRef .tc main_v86) = agg16 (W (Proc.devRef .tc main_v3)) (W (Proc.devRef .tc main_v6)) (W (Proc.devRef .tc main_v73)) (W (Proc.devRef .tc main_v50)) := by
  dsimp only [seg10]; after_results_simp <;> rfl
set_option maxHeartbeats 4000000 in
theorem seg11_v90 : after seg11 W (Proc.devRef .tc main_v90) = biasLsm (W (Proc.devRef .tc main_v86)) (W (Proc.devRef .tc main_arg6)) := by
  dsimp only [seg11]; after_results_simp
  simp only [Cert.Lib.TypedRef.ofBuf_toBuf]
  rfl

end Cert.ReferenceIdeal.Seg

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.LibAfterSegment.lean ====
import proofs.«178137_j82291573391519_1_alg».proof.Proof.LibAfterAssign

/-!
# Reading a long straight line of operations one SEGMENT at a time

A line of operations in single-assignment form (`WritesAre ops ws`: the `k`-th operation writes exactly the `k`-th
reference of `ws`) is cut at positions `k` and `k + n`. If no operation from position `k + n` on writes the reference
`y`, the whole line leaves at `y` what the `n` operations from position `k` leave there, run from the contents after the
first `k` operations (`after_segment`). Together with `after_take_at_unwritten` — a reference that no operation from
position `k` on writes holds after the first `k` operations what it holds at the end — a segment's own reading, "its
result is this function of what it found at these references", becomes an equation between the FINAL contents of its
result and the FINAL contents of the references it reads. The segments' equations can then be used in program order,
and no contents at an intermediate position are ever named.
-/

namespace Cert.Lib.AfterAssign

open Idealize.ShloMosaic Idealize.ShloMosaic.StableHlo

variable {τ : Topo} {sig : RefSig} {Val : EltTy → Type}

/-- If no operation from position `k + n` on writes `y`, the whole line leaves at `y` what the segment of `n`
    operations from position `k` leaves there, from the contents after the first `k` operations. -/
theorem after_segment {ops : List (HloOp τ sig Val)} {ws : List (Ref sig .tc)} (h : WritesAre ops ws)
    (k n : Nat) (V : Valuation τ sig Val) {y : Ref sig .tc} (hy : y ∉ ws.drop (k + n)) :
    after ops V (Proc.devRef .tc y)
      = after ((ops.drop k).take n) (after (ops.take k) V) (Proc.devRef .tc y) := by
  have e : after ops V = after (ops.drop (k + n)) (after ((ops.drop k).take n) (after (ops.take k) V)) := by
    rw [after_take_drop k ops V, after_take_drop n (ops.drop k) (after (ops.take k) V), List.drop_drop]
  rw [e]
  exact after_of_not_written (WritesAre.drop (k + n) h) _ hy

end Cert.Lib.AfterAssign
-- ==== Proof.RFold.lean ====
/-
  The reference's result as one function of its arguments.

  The program is in single-assignment form: each of its 132 operations writes its own buffer. So what the whole line
  leaves at a segment's result is that segment's function of what the WHOLE line leaves at the buffers the segment
  reads, and the eleven segments' equations, used in program order, compose to the result: the second bias and the
  row-wise log-softmax of the second layer's aggregation of the second product of the clamped first layer.
-/
import proofs.«178137_j82291573391519_1_alg».proof.Proof.RefSeg
import proofs.«178137_j82291573391519_1_alg».proof.Proof.LibAfterSegment

noncomputable section

namespace Cert.ReferenceIdeal.FoldV

open Cert.ReferenceIdeal Cert.ReferenceIdeal.Gen Idealize.ShloMosaic Idealize.ShloMosaic.TcCoe Idealize.SL.Sem Idealize.ShloMosaic.StableHlo
open Cert.KernelIdeal.Stretch (srcW dstW ewW posW rsqW pickW normW normOf agg64 agg16)
open Cert.ReferenceIdeal.Stages Cert.ReferenceIdeal.Seg Cert.Lib.AfterAssign
open Cert.ReferenceIdeal.ValueP (ops)

variable {F : FTy → Type} [FloatOps F]

/-- The buffer each operation writes, in program order. -/
def ws : List (Ref sig .tc) :=
  [main_v0, main_v1, main_v2, main_v3, main_v4, main_v5, main_v6, main_cst, main_v7, main_v8, main_v9, main_cst_0, main_v10, main_v11, main_v12, main_cst_1, main_v13, main_v14, main_v15, main_cst_2, main_call0_v0, main_call0_v1, main_v16, main_c, main_v17, main_v18, main_c_3, main_v19, main_v20, main_v21, main_v22, main_v23, main_v24, main_c_4, main_v25, main_v26, main_c_5, main_v27, main_v28, main_v29, main_v30, main_v31, main_v32, main_v33, main_c_6, main_v34, main_v35, main_c_7, main_v36, main_v37, main_v38, main_v39, main_v40, main_v41, main_v42, main_cst_8, main_v43, main_v44, main_v45, main_v46, main_v47, main_v48, main_call1_cst, main_call1_v0, main_v49, main_v50, main_cst_9, main_v51, main_v52, main_v53, main_cst_10, main_v54, main_v55, main_v56, main_cst_11, main_call2_v0, main_call2_v1, main_v57, main_c_12, main_v58, main_v59, main_c_13, main_v60, main_v61, main_v62, main_v63, main_v64, main_v65, main_c_14, main_v66, main_v67, main_c_15, main_v68, main_v69, main_v70, main_v71, main_v72, main_v73, main_v74, main_c_16, main_v75, main_v76, main_c_17, main_v77, main_v78, main_v79, main_v80, main_v81, main_v82, main_v83, main_cst_18, main_v84, main_v85, main_v86, main_v87, main_v88, main_v89, main_call3_cst, main_call3_v0, main_call3_cst_0, main_call3_v1, main_call3_v2, main_call3_v3, main_call3_v4, main_call3_v5, main_call3_v6, main_call3_cst_1, main_call3_v7, main_call3_v8, main_call3_v9, main_call3_v10, main_v90]

set_option maxRecDepth 8192 in
/-- The program is in single-assignment form. -/
theorem hW : WritesAre (ops (F := F)) ws :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

variable (V : Valuation τ sig (Elt F))

/-! ## No operation writes an argument -/

theorem at_arg0 : after ops V (Proc.devRef .tc main_arg0) = V (Proc.devRef .tc main_arg0) := after_of_not_written hW V (by decide)
theorem at_arg1 : after ops V (Proc.devRef .tc main_arg1) = V (Proc.devRef .tc main_arg1) := after_of_not_written hW V (by decide)
theorem at_arg2 : after ops V (Proc.devRef .tc main_arg2) = V (Proc.devRef .tc main_arg2) := after_of_not_written hW V (by decide)
theorem at_arg3 : after ops V (Proc.devRef .tc main_arg3) = V (Proc.devRef .tc main_arg3) := after_of_not_written hW V (by decide)
theorem at_arg4 : after ops V (Proc.devRef .tc main_arg4) = V (Proc.devRef .tc main_arg4) := after_of_not_written hW V (by decide)
theorem at_arg5 : after ops V (Proc.devRef .tc main_arg5) = V (Proc.devRef .tc main_arg5) := after_of_not_written hW V (by decide)
theorem at_arg6 : after ops V (Proc.devRef .tc main_arg6) = V (Proc.devRef .tc main_arg6) := after_of_not_written hW V (by decide)

/-! ## Each segment's equation at the final contents -/

theorem at_v3 : after ops V (Proc.devRef .tc main_v3) = srcW (after ops V (Proc.devRef .tc main_arg1)) := by
  rw [after_segment hW 0 10 V (y := main_v3) (by decide)]
  refine (seg1_v3 _).trans ?_
  rw [after_take_at_unwritten hW 0 V (a := main_arg1) (by decide)]
theorem at_v6 : after ops V (Proc.devRef .tc main_v6) = dstW (after ops V (Proc.devRef .tc main_arg1)) := by
  rw [after_segment hW 0 10 V (y := main_v6) (by decide)]
  refine (seg1_v6 _).trans ?_
  rw [after_take_at_unwritten hW 0 V (a := main_arg1) (by decide)]
theorem at_v8 : after ops V (Proc.devRef .tc main_v8) = ewW (after ops V (Proc.devRef .tc main_arg2)) := by
  rw [after_segment hW 0 10 V (y := main_v8) (by decide)]
  refine (seg1_v8 _).trans ?_
  rw [after_take_at_unwritten hW 0 V (a := main_arg2) (by decide)]
theorem at_v9 : after ops V (Proc.devRef .tc main_v9) = dot1 (after ops V (Proc.devRef .tc main_arg0)) (after ops V (Proc.devRef .tc main_arg3)) := by
  rw [after_segment hW 10 1 V (y := main_v9) (by decide)]
  refine (seg2_v9 _).trans ?_
  rw [after_take_at_unwritten hW 10 V (a := main_arg0) (by decide), after_take_at_unwritten hW 10 V (a := main_arg3) (by decide)]
theorem at_v16 : after ops V (Proc.devRef .tc main_v16) = pickW (posW (after ops V (Proc.devRef .tc main_v6)) (after ops V (Proc.devRef .tc main_v8))) (rsqW (after ops V (Proc.devRef .tc main_v6)) (after ops V (Proc.devRef .tc main_v8))) (constant S_ .f32 0x00000000#32) := by
  rw [after_segment hW 11 12 V (y := main_v16) (by decide)]
  refine (seg3_v16 _).trans ?_
  rw [after_take_at_unwritten hW 11 V (a := main_v6) (by decide), after_take_at_unwritten hW 11 V (a := main_v8) (by decide)]
theorem at_v32 : after ops V (Proc.devRef .tc main_v32) = normW (after ops V (Proc.devRef .tc main_v16)) (after ops V (Proc.devRef .tc main_v3)) (after ops V (Proc.devRef .tc main_v6)) (after ops V (Proc.devRef .tc main_v8)) := by
  rw [after_segment hW 23 20 V (y := main_v32) (by decide)]
  refine (seg4_v32 _).trans ?_
  rw [after_take_at_unwritten hW 23 V (a := main_v16) (by decide), after_take_at_unwritten hW 23 V (a := main_v3) (by decide), after_take_at_unwritten hW 23 V (a := main_v6) (by decide), after_take_at_unwritten hW 23 V (a := main_v8) (by decide)]
theorem at_v45 : after ops V (Proc.devRef .tc main_v45) = agg64 (after ops V (Proc.devRef .tc main_v3)) (after ops V (Proc.devRef .tc main_v6)) (after ops V (Proc.devRef .tc main_v32)) (after ops V (Proc.devRef .tc main_v9)) := by
  rw [after_segment hW 43 16 V (y := main_v45) (by decide)]
  refine (seg5_v45 _).trans ?_
  rw [after_take_at_unwritten hW 43 V (a := main_v3) (by decide), after_take_at_unwritten hW 43 V (a := main_v6) (by decide), after_take_at_unwritten hW 43 V (a := main_v32) (by decide), after_take_at_unwritten hW 43 V (a := main_v9) (by decide)]
theorem at_v49 : after ops V (Proc.devRef .tc main_v49) = biasClamp (after ops V (Proc.devRef .tc main_v45)) (after ops V (Proc.devRef .tc main_arg4)) := by
  rw [after_segment hW 59 6 V (y := main_v49) (by decide)]
  refine (seg6_v49 _).trans ?_
  rw [after_take_at_unwritten hW 59 V (a := main_v45) (by decide), after_take_at_unwritten hW 59 V (a := main_arg4) (by decide)]
theorem at_v50 : after ops V (Proc.devRef .tc main_v50) = dot2 (after ops V (Proc.devRef .tc main_v49)) (after ops V (Proc.devRef .tc main_arg5)) := by
  rw [after_segment hW 65 1 V (y := main_v50) (by decide)]
  refine (seg7_v50 _).trans ?_
  rw [after_take_at_unwritten hW 65 V (a := main_v49) (by decide), after_take_at_unwritten hW 65 V (a := main_arg5) (by decide)]
theorem at_v57 : after ops V (Proc.devRef .tc main_v57) = pickW (posW (after ops V (Proc.devRef .tc main_v6)) (after ops V (Proc.devRef .tc main_v8))) (rsqW (after ops V (Proc.devRef .tc main_v6)) (after ops V (Proc.devRef .tc main_v8))) (constant S_ .f32 0x00000000#32) := by
  rw [after_segment hW 66 12 V (y := main_v57) (by decide)]
  refine (seg8_v57 _).trans ?_
  rw [after_take_at_unwritten hW 66 V (a := main_v6) (by decide), after_take_at_unwritten hW 66 V (a := main_v8) (by decide)]
theorem at_v73 : after ops V (Proc.devRef .tc main_v73) = normW (after ops V (Proc.devRef .tc main_v57)) (after ops V (Proc.devRef .tc main_v3)) (after ops V (Proc.devRef .tc main_v6)) (after ops V (Proc.devRef .tc main_v8)) := by
  rw [after_segment hW 78 20 V (y := main_v73) (by decide)]
  refine (seg9_v73 _).trans ?_
  rw [after_take_at_unwritten hW 78 V (a := main_v57) (by decide), after_take_at_unwritten hW 78 V (a := main_v3) (by decide), after_take_at_unwritten hW 78 V (a := main_v6) (by decide), after_take_at_unwritten hW 78 V (a := main_v8) (by decide)]
theorem at_v86 : after ops V (Proc.devRef .tc main_v86) = agg16 (after ops V (Proc.devRef .tc main_v3)) (after ops V (Proc.devRef .tc main_v6)) (after ops V (Proc.devRef .tc main_v73)) (after ops V (Proc.devRef .tc main_v50)) := by
  rw [after_segment hW 98 16 V (y := main_v86) (by decide)]
  refine (seg10_v86 _).trans ?_
  rw [after_take_at_unwritten hW 98 V (a := main_v3) (by decide), after_take_at_unwritten hW 98 V (a := main_v6) (by decide), after_take_at_unwritten hW 98 V (a := main_v73) (by decide), after_take_at_unwritten hW 98 V (a := main_v50) (by decide)]
theorem at_v90 : after ops V (Proc.devRef .tc main_v90) = biasLsm (after ops V (Proc.devRef .tc main_v86)) (after ops V (Proc.devRef .tc main_arg6)) := by
  rw [after_segment hW 114 18 V (y := main_v90) (by decide)]
  refine (seg11_v90 _).trans ?_
  rw [after_take_at_unwritten hW 114 V (a := main_v86) (by decide), after_take_at_unwritten hW 114 V (a := main_arg6) (by decide)]

/-! ## Composed -/

/-- The edges' normalisations, either time the reference computes them. -/
theorem at_norm1 : after ops V (Proc.devRef .tc main_v32) = (normOf (V (Proc.devRef .tc main_arg1)) (V (Proc.devRef .tc main_arg2))) := by
  rw [at_v32, at_v16, at_v8, at_v6, at_v3, at_arg1, at_arg2]; rfl
theorem at_norm2 : after ops V (Proc.devRef .tc main_v73) = (normOf (V (Proc.devRef .tc main_arg1)) (V (Proc.devRef .tc main_arg2))) := by
  rw [at_v73, at_v57, at_v8, at_v6, at_v3, at_arg1, at_arg2]; rfl

/-- The reference's forward pass, in its own dense stages and the shared graph functions. -/
def refValue (x0 : (⟨S100000x128, .f32⟩ : BufTy).Contents (Elt F)) (x1 : (⟨S2x1600000, .i32⟩ : BufTy).Contents (Elt F))
    (x2 : (⟨S1600000, .f32⟩ : BufTy).Contents (Elt F)) (x3 : (⟨S128x64, .f32⟩ : BufTy).Contents (Elt F))
    (x4 : (⟨S64, .f32⟩ : BufTy).Contents (Elt F)) (x5 : (⟨S64x16, .f32⟩ : BufTy).Contents (Elt F))
    (x6 : (⟨S16, .f32⟩ : BufTy).Contents (Elt F)) : (⟨S100000x16, .f32⟩ : BufTy).Contents (Elt F) :=
  biasLsm (agg16 (srcW x1) (dstW x1) (normOf x1 x2) (dot2 (biasClamp (agg64 (srcW x1) (dstW x1) (normOf x1 x2) (dot1 x0 x3)) x4) x5)) x6

/-- The result buffer at the end of the reference's line of operations is its forward pass of the arguments. -/
theorem at_result : after ops V (Proc.devRef .tc main_v90)
    = refValue (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [at_v90, at_v86, at_norm2, at_v50, at_v49, at_v45, at_norm1, at_v9, at_v6, at_v3, at_arg0, at_arg1, at_arg3, at_arg4, at_arg5, at_arg6]
  rfl

end Cert.ReferenceIdeal.FoldV

end
-- ==== Proof.RefDot.lean ====
/-
  The reference's two general dots are the matrix products of the specification.
-/
import proofs.«178137_j82291573391519_1_alg».proof.Proof.RefStages
import proofs.«178137_j82291573391519_1_alg».proof.Proof.Spec
import proofs.«178137_j82291573391519_1_alg».proof.Proof.KStretch
import proofs.«178137_j82291573391519_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Gcn.RefDot

open Idealize.ShloMosaic Idealize.ShloMosaic.ValueIdx

/-- The first general dot is the matrix product: with axis 1 of the left operand contracted against axis 0 of the right one
    and no batch axis, entry (p, q) is the sum over k of a(p, k) · b(k, q). -/
theorem dot1_eq (a : (⟨Cert.ReferenceIdeal.S100000x128, .f32⟩ : BufTy).Contents (Elt Ideal)) (b : (⟨Cert.ReferenceIdeal.S128x64, .f32⟩ : BufTy).Contents (Elt Ideal)) :
    Cert.ReferenceIdeal.Stages.dot1 (F := Ideal) a b = Cert.Gcn.mm (M := 100000) (K := 128) (N := 64) a b := by
  funext i
  obtain ⟨p, q, rfl⟩ : ∃ (p : Fin 100000) (q : Fin 64), i = ix2 p q := ⟨i 0, i 1, eq_ix2 i⟩
  unfold Cert.ReferenceIdeal.Stages.dot1
  show _ = ∑ k : Fin 128, a (ix2 p k) * b (ix2 k q)
  exact Cert.MatOps.dotGeneral_plain_apply (M := 100000) (K := 128) (N := 64) none a b p q

/-- The second general dot is the matrix product, by the same reading at the sizes 100000 × 64 by 64 × 16. -/
theorem dot2_eq (a : (⟨Cert.ReferenceIdeal.S100000x64, .f32⟩ : BufTy).Contents (Elt Ideal)) (b : (⟨Cert.ReferenceIdeal.S64x16, .f32⟩ : BufTy).Contents (Elt Ideal)) :
    Cert.ReferenceIdeal.Stages.dot2 (F := Ideal) a b = Cert.Gcn.mm (M := 100000) (K := 64) (N := 16) a b := by
  funext i
  obtain ⟨p, q, rfl⟩ : ∃ (p : Fin 100000) (q : Fin 16), i = ix2 p q := ⟨i 0, i 1, eq_ix2 i⟩
  unfold Cert.ReferenceIdeal.Stages.dot2
  show _ = ∑ k : Fin 64, a (ix2 p k) * b (ix2 k q)
  exact Cert.MatOps.dotGeneral_plain_apply (M := 100000) (K := 64) (N := 16) none a b p q

end Cert.Gcn.RefDot

end
-- ==== Proof.RefClamp.lean ====
/-
  The reference's bias-and-clamp stage is the specification's, the bias vector read as the one-row matrix the kernel passes.

  The reference repeats the bias vector x4 as a one-row matrix (entry (0, q) is x4(q)), repeats that row down the
  100000 rows (entry (p, q) is the row's (0, q)), adds it to a and takes the maximum with the splat of the zero word.
  The specification adds entry (0, q) of the one-row matrix that is x4 recast to one row, which is again x4(q): the
  row-major position of (0, q) in a one-row matrix is q.
-/
import proofs.«178137_j82291573391519_1_alg».proof.Proof.RefStages
import proofs.«178137_j82291573391519_1_alg».proof.Proof.Spec
import proofs.«178137_j82291573391519_1_alg».proof.Proof.KStretch
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Gcn.RefClamp

open Idealize.ShloMosaic Idealize.ShloMosaic.ValueIdx

variable {α : Type}

/-- A vector of b entries repeated as a one-row matrix (its axis sent to axis 1) reads, at (u, q), the vector at q. -/
theorem row_of_vector_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x (ix2 u q) (ix1 q) fun ax =>
    match ax with
    | ⟨0, _⟩ => by
      show q.val = if b = 1 then 0 else q.val
      split
      · have := q.isLt; omega
      · rfl

/-- A one-row matrix repeated down a rows (axes kept in place) reads, at (p, q), the row at (0, q). -/
theorem rows_of_row_apply {a b : ℕ} (y : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h y (ix2 p q) = y (ix2 (0 : Fin 1) q) :=
  broadcastInDim_apply _ h y (ix2 p q) (ix2 (0 : Fin 1) q) fun ax =>
    match ax with
    | ⟨0, _⟩ => by
      show (0 : ℕ) = if (1 : ℕ) = 1 then 0 else p.val
      rw [if_pos rfl]
    | ⟨1, _⟩ => by
      show q.val = if b = 1 then 0 else q.val
      split
      · have := q.isLt; omega
      · rfl

/-- A rank-0 array repeated over any shape reads its one entry everywhere. -/
theorem splat_apply {t : Shape} (z : (⟨0, ![]⟩ : Shape).Idx → α) (dims : Fin 0 → Fin t.rank)
    (h : (⟨0, ![]⟩ : Shape).BroadcastsInDim t dims) (j : t.Idx) :
    broadcastInDim t dims h z j = z ix0 :=
  broadcastInDim_apply dims h z j ix0 fun ax => ax.elim0

/-- The bias vector repeated down the rows, added, then the maximum with zero: the specification's `biasRelu` of the one-row matrix. -/
theorem biasClamp_eq (a : (⟨Cert.ReferenceIdeal.S100000x64, .f32⟩ : BufTy).Contents (Elt Ideal)) (x4 : (⟨Cert.ReferenceIdeal.S64, .f32⟩ : BufTy).Contents (Elt Ideal)) :
    Cert.ReferenceIdeal.Stages.biasClamp (F := Ideal) a x4 = Cert.Gcn.biasRelu (M := 100000) (N := 64) a (Cert.KernelIdeal.Stretch.row64 (F := Ideal) x4) := by
  funext i
  obtain ⟨p, q, rfl⟩ : ∃ (p : Fin 100000) (q : Fin 64), i = ix2 p q := ⟨i 0, i 1, eq_ix2 i⟩
  unfold Cert.ReferenceIdeal.Stages.biasClamp Cert.Gcn.biasRelu Cert.Gcn.addRow Cert.KernelIdeal.Stretch.row64
  rw [maximumf_apply, addf_apply, rows_of_row_apply, row_of_vector_apply, splat_apply, constant_apply, shapeCast_a_1a_apply]

end Cert.Gcn.RefClamp

end
-- ==== Proof.RefLsm.lean ====
/-
  The reference's bias-and-log-softmax stage is the specification's, the bias vector read as the one-row matrix the kernel passes.

  The reference repeats the bias vector x as a one-row matrix and that row down the rows, so the biased matrix v has
  entry (p, q) = a(p, q) + x(q): the specification's `addRow` of a and the one-row matrix whose entry (0, q) is x(q).
  Its row maximum is a max-reduce over axis 1 from the word of −∞ — the fold of max from that word over the row's 16
  entries — joined once more with the same word, which changes nothing since a fold of max from a value is at least
  that value. Its row sum is an add-reduce from the zero word: zero plus the sum over the row's 16 entries. The two
  reduced vectors are made columns and repeated along the rows, so entry (p, q) is
  (v(p, q) − m_p) − log (Σ_k exp (v(p, k) − m_p)).
-/
import proofs.«178137_j82291573391519_1_alg».proof.Proof.RefStages
import proofs.«178137_j82291573391519_1_alg».proof.Proof.Spec
import proofs.«178137_j82291573391519_1_alg».proof.Proof.KStretch
import proofs.«178137_j82291573391519_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Gcn.RefLsm

open Idealize.ShloMosaic Idealize.ShloMosaic.ValueIdx
open Cert.ReferenceIdeal (S100000x16 S100000 S100000x1 S_ S16 S1x16)

/-! ## The layout operations at an index -/

section Layout
variable {α : Type}

/-- A vector of 100000 made a column reads, at (p, u), the vector at p. -/
theorem column_apply (y : S100000.Idx → α) (h : S100000.BroadcastsInDim S100000x1 (![0] : Fin 1 → Fin S100000x1.rank))
    (p : Fin 100000) (u : Fin 1) : broadcastInDim S100000x1 ![0] h y (ix2 p u) = y (ix1 p) :=
  broadcastInDim_apply _ h y (ix2 p u) (ix1 p) fun a => match a with
    | ⟨0, _⟩ => by show p.val = if (100000 : Nat) = 1 then 0 else p.val; rw [if_neg (by decide)]

/-- A column repeated along the rows reads, at (p, q), the column at (p, 0). -/
theorem alongRow_apply (y : S100000x1.Idx → α) (h : S100000x1.BroadcastsInDim S100000x16 (![0, 1] : Fin 2 → Fin S100000x16.rank))
    (p : Fin 100000) (q : Fin 16) : broadcastInDim S100000x16 ![0, 1] h y (ix2 p q) = y (ix2 p (0 : Fin 1)) :=
  broadcastInDim_apply _ h y (ix2 p q) (ix2 p (0 : Fin 1)) fun a => match a with
    | ⟨0, _⟩ => by show p.val = if (100000 : Nat) = 1 then 0 else p.val; rw [if_neg (by decide)]
    | ⟨1, _⟩ => by show (0 : Nat) = if (1 : Nat) = 1 then 0 else q.val; rw [if_pos rfl]

/-- A vector of 16 made a one-row matrix reads, at (u, q), the vector at q. -/
theorem oneRow_apply (y : S16.Idx → α) (h : S16.BroadcastsInDim S1x16 (![1] : Fin 1 → Fin S1x16.rank))
    (u : Fin 1) (q : Fin 16) : broadcastInDim S1x16 ![1] h y (ix2 u q) = y (ix1 q) :=
  broadcastInDim_apply _ h y (ix2 u q) (ix1 q) fun a => match a with
    | ⟨0, _⟩ => by show q.val = if (16 : Nat) = 1 then 0 else q.val; rw [if_neg (by decide)]

/-- A one-row matrix repeated down the rows reads, at (p, q), the row at (0, q). -/
theorem downRows_apply (y : S1x16.Idx → α) (h : S1x16.BroadcastsInDim S100000x16 (![0, 1] : Fin 2 → Fin S100000x16.rank))
    (p : Fin 100000) (q : Fin 16) : broadcastInDim S100000x16 ![0, 1] h y (ix2 p q) = y (ix2 (0 : Fin 1) q) :=
  broadcastInDim_apply _ h y (ix2 p q) (ix2 (0 : Fin 1) q) fun a => match a with
    | ⟨0, _⟩ => by show (0 : Nat) = if (1 : Nat) = 1 then 0 else p.val; rw [if_pos rfl]
    | ⟨1, _⟩ => by show q.val = if (16 : Nat) = 1 then 0 else q.val; rw [if_neg (by decide)]

/-- A scalar repeated over a vector reads the scalar everywhere. -/
theorem splat_apply (y : S_.Idx → α) (h : S_.BroadcastsInDim S100000 (![] : Fin 0 → Fin S100000.rank))
    (j : S100000.Idx) : broadcastInDim S100000 ![] h y j = y ix0 :=
  broadcastInDim_apply _ h y j ix0 fun a => a.elim0

end Layout

/-! ## The two reductions at a row -/

section Reduce
variable (v : FVec Ideal S100000x16 .f32) (h' : S100000x16.ReducesTo [1] S100000) (hu : 0 < S_.numel)

/-- The max-reduce over axis 1 from the word of −∞ is, at row p, the fold of max from that word over the row's 16 entries:
    the inserted index (p, k) is `ix2 p k`, coordinate by coordinate. -/
theorem hostMax_apply (p : Fin 100000) :
    Host.reduce (FloatOps.maximumf (F := Ideal) (φ := .f32)) v (constant (F := Ideal) S_ .f32 0xFF800000#32) h' hu (ix1 p)
      = Cert.Gcn.rowMax (M := 100000) (N := 16) v p := by
  have h : S100000x16.Reduces [1] S100000 := by decide
  refine (Host.reduce_eq_fold_single (FloatOps.maximumf (F := Ideal) (φ := .f32)) v _ h' h hu (ix1 p)).trans ?_
  show (Finset.univ : Finset (Fin 16)).fold max (Ideal.ofBits .f32 0xFF800000#32) (fun k => v (h.lift (ix1 p) k))
    = (Finset.univ : Finset (Fin 16)).fold max (Ideal.ofBits .f32 0xFF800000#32) (fun k => v (ix2 p k))
  refine congrArg (fun f => (Finset.univ : Finset (Fin 16)).fold max (Ideal.ofBits .f32 0xFF800000#32) f)
    (funext fun k => congrArg v (funext fun c => Fin.ext ?_))
  match c with
  | ⟨0, _⟩ => rfl
  | ⟨1, _⟩ => rfl

/-- Joined once more with the word of −∞ the row maximum is unchanged: a fold of max from a value is at least that value. -/
theorem max_negInf_rowMax (p : Fin 100000) :
    max Cert.Gcn.negInfW (Cert.Gcn.rowMax (M := 100000) (N := 16) v p) = Cert.Gcn.rowMax (M := 100000) (N := 16) v p :=
  max_eq_right ((Finset.le_fold_max _).mpr (Or.inl le_rfl))

/-- The add-reduce over axis 1 from the zero word is, at row p, the sum of the row's 16 entries (zero added). -/
theorem hostSum_apply (p : Fin 100000) :
    Host.reduceAdd (F := Ideal) v (constant (F := Ideal) S_ .f32 0x00000000#32) h' hu (ix1 p) = ∑ k : Fin 16, v (ix2 p k) := by
  have h : S100000x16.Reduces [1] S100000 := by decide
  simp only [Host.reduceAdd, Ideal.hostReduceAdd_def]
  rw [Ideal.hostReduceAdd_single h' h]
  show Ideal.ofBits .f32 0x00000000#32 + ∑ k : Fin 16, v (h.lift (ix1 p) k) = ∑ k : Fin 16, v (ix2 p k)
  rw [Ideal.ofBits_zero_f32, zero_add]
  refine Finset.sum_congr rfl fun k _ => congrArg v (funext fun c => Fin.ext ?_)
  match c with
  | ⟨0, _⟩ => rfl
  | ⟨1, _⟩ => rfl

end Reduce

/-! ## The stages at an entry -/

/-- The host's exponential of an array, at an index. -/
theorem hostExp_apply {s : Shape} (x : FVec Ideal s .f32) (i : s.Idx) : Host.exp x i = Ideal.exp (x i) := rfl
/-- The host's logarithm of an array, at an index. -/
theorem hostLog_apply {s : Shape} (x : FVec Ideal s .f32) (i : s.Idx) : Host.log x i = Ideal.log (x i) := rfl

/-- The biased matrix is the specification's: entry (p, q) is a(p, q) + x(q), and x(q) is entry (0, q) of the vector cast
    to a one-row matrix. -/
theorem addBias16_eq (a : FVec Ideal S100000x16 .f32) (x6 : FVec Ideal S16 .f32) :
    Cert.ReferenceIdeal.Stages.addBias16 (F := Ideal) a x6
      = Cert.Gcn.addRow (M := 100000) (N := 16) a (Cert.KernelIdeal.Stretch.row16 (F := Ideal) x6) := by
  funext i
  obtain ⟨p, q, rfl⟩ : ∃ (p : Fin 100000) (q : Fin 16), i = ix2 p q := ⟨i 0, i 1, eq_ix2 i⟩
  unfold Cert.ReferenceIdeal.Stages.addBias16
  rw [addf_apply, downRows_apply, oneRow_apply]
  unfold Cert.KernelIdeal.Stretch.row16
  show a (ix2 p q) + x6 (ix1 q) = a (ix2 p q) + shapeCast _ x6 _ (ix2 (0 : Fin 1) q)
  rw [shapeCast_a_1a_apply]

/-- The shifted matrix at an entry: the entry less its row's maximum. -/
theorem rowShift_apply (v : FVec Ideal S100000x16 .f32) (p : Fin 100000) (q : Fin 16) :
    Cert.ReferenceIdeal.Stages.rowShift (F := Ideal) v (ix2 p q) = v (ix2 p q) - Cert.Gcn.rowMax (M := 100000) (N := 16) v p := by
  unfold Cert.ReferenceIdeal.Stages.rowShift
  rw [subf_apply, alongRow_apply, column_apply, maximumf_apply, splat_apply, hostMax_apply]
  exact congrArg (fun m => v (ix2 p q) - m) (max_negInf_rowMax v p)

/-- The reference's row-wise log-softmax is the specification's. -/
theorem lsm_eq (v : FVec Ideal S100000x16 .f32) :
    Cert.ReferenceIdeal.Stages.lsm (F := Ideal) v = Cert.Gcn.logSoftmax (M := 100000) (N := 16) v := by
  funext i
  obtain ⟨p, q, rfl⟩ : ∃ (p : Fin 100000) (q : Fin 16), i = ix2 p q := ⟨i 0, i 1, eq_ix2 i⟩
  unfold Cert.ReferenceIdeal.Stages.lsm
  rw [subf_apply, alongRow_apply, hostLog_apply, column_apply, hostSum_apply, rowShift_apply]
  show _ = (v (ix2 p q) - Cert.Gcn.rowMax (M := 100000) (N := 16) v p)
    - Ideal.log (∑ k : Fin 16, Ideal.exp (v (ix2 p k) - Cert.Gcn.rowMax (M := 100000) (N := 16) v p))
  refine congrArg (fun s => (v (ix2 p q) - Cert.Gcn.rowMax (M := 100000) (N := 16) v p) - Ideal.log s)
    (Finset.sum_congr rfl fun k _ => ?_)
  rw [hostExp_apply, rowShift_apply]

/-- The bias vector repeated down the rows, added, then the row-wise log-softmax: the specification's `biasLogSoftmax` of the one-row matrix. -/
theorem biasLsm_eq (a : (⟨Cert.ReferenceIdeal.S100000x16, .f32⟩ : BufTy).Contents (Elt Ideal)) (x6 : (⟨Cert.ReferenceIdeal.S16, .f32⟩ : BufTy).Contents (Elt Ideal)) :
    Cert.ReferenceIdeal.Stages.biasLsm (F := Ideal) a x6 = Cert.Gcn.biasLogSoftmax (M := 100000) (N := 16) a (Cert.KernelIdeal.Stretch.row16 (F := Ideal) x6) := by
  unfold Cert.ReferenceIdeal.Stages.biasLsm Cert.Gcn.biasLogSoftmax
  rw [addBias16_eq, lsm_eq]

end Cert.Gcn.RefLsm

end
-- ==== Proof.Bridge.lean ====
/-
  The two forward passes are one function.

  The reference's pass and the kernel's pass differ only in how the four dense node-wise stages are spelt: the
  reference's general dots are the matrix products, its bias-and-clamp and bias-and-log-softmax stages are the
  specification's at the bias read as a one-row matrix. The graph functions around them (the index vectors, the
  normalisations, the aggregations) are the same functions on both sides.
-/
import proofs.«178137_j82291573391519_1_alg».proof.Proof.KFold
import proofs.«178137_j82291573391519_1_alg».proof.Proof.RFold
import proofs.«178137_j82291573391519_1_alg».proof.Proof.RefDot
import proofs.«178137_j82291573391519_1_alg».proof.Proof.RefClamp
import proofs.«178137_j82291573391519_1_alg».proof.Proof.RefLsm

noncomputable section

namespace Cert.Gcn.Bridge

open Idealize.ShloMosaic

/-- The reference's forward pass of the arguments is the kernel's. -/
theorem ref_eq_kernel (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S1600000, .f32⟩ : BufTy).Contents (Elt Ideal))
    (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x16, .f32⟩ : BufTy).Contents (Elt Ideal)) (x6 : (⟨Cert.ReferenceIdeal.S16, .f32⟩ : BufTy).Contents (Elt Ideal)) :
    Cert.ReferenceIdeal.FoldV.refValue (F := Ideal) x0 x1 x2 x3 x4 x5 x6 = Cert.KernelIdeal.FoldV.kernelValue x0 x1 x2 x3 x4 x5 x6 := by
  unfold Cert.ReferenceIdeal.FoldV.refValue Cert.KernelIdeal.FoldV.kernelValue Cert.KernelIdeal.FoldV.layer1
  rw [Cert.Gcn.RefLsm.biasLsm_eq, Cert.Gcn.RefDot.dot2_eq, Cert.Gcn.RefClamp.biasClamp_eq, Cert.Gcn.RefDot.dot1_eq]

end Cert.Gcn.Bridge

end
-- ==== Proof.lean ====
/-
  A two-layer graph convolution with self loops and symmetric normalisation, followed by a row-wise log-softmax.

  Both programs compute, for node features x, edge list and weights, two weights W1, W2 and two biases b1, b2:
  the edges with one self loop per node appended; the weighted in-degree of every node and the edges' normalisations
  (inverse square root of the source's degree, the weight, inverse square root of the destination's degree, with the
  factor zero where a degree is not positive); then layer 1 = max(Agg(x·W1) + b1, 0) and the result
  log_softmax(Agg(layer 1 · W2) + b2), where Agg gathers rows at the edges' sources, scales them by the normalisations
  and scatter-adds them into the edges' destinations.

  The kernel computes the graph's data once on the host and the four dense node-wise stages (two products, bias with
  clamp, bias with log-softmax) in four tiled regions of 50 row tiles; the reference computes everything on the host,
  the normalisations once per layer. On the extended reals the rounding of the products' operands is the identity, a
  tile's product entry is the full sum over the inner index, a row's maximum and sum of exponentials only involve the
  row, which lies inside its tile, and the reference's second copy of the normalisations is the first. So both results
  are one function of the arguments, with no appeal to finiteness: the claim's precondition is never opened.

  The frames of the two kernel programs are the generated ones; the reference's frame and run are the run of its line
  of operations, read at the arguments and at the result.
-/
import proofs.«178137_j82291573391519_1_alg».proof.Defs
import proofs.«178137_j82291573391519_1_alg».proof.Proof.Gen.Kernel
import proofs.«178137_j82291573391519_1_alg».proof.Proof.Gen.Kernel.Skeleton
import proofs.«178137_j82291573391519_1_alg».proof.Proof.Gen.Kernel.Launch
import proofs.«178137_j82291573391519_1_alg».proof.Proof.Gen.Kernel.Points
import proofs.«178137_j82291573391519_1_alg».proof.Proof.Gen.Kernel.Frame
import proofs.«178137_j82291573391519_1_alg».proof.Proof.Gen.KernelIdeal
import proofs.«178137_j82291573391519_1_alg».proof.Proof.Gen.KernelIdeal.Skeleton
import proofs.«178137_j82291573391519_1_alg».proof.Proof.Gen.KernelIdeal.Launch
import proofs.«178137_j82291573391519_1_alg».proof.Proof.Gen.KernelIdeal.Points
import proofs.«178137_j82291573391519_1_alg».proof.Proof.Gen.KernelIdeal.Frame
import proofs.«178137_j82291573391519_1_alg».proof.Proof.Gen.ReferenceIdeal
import proofs.«178137_j82291573391519_1_alg».proof.Proof.Gen.Pre_finite_inputs
import proofs.«178137_j82291573391519_1_alg».proof.Proof.RunP
import proofs.«178137_j82291573391519_1_alg».proof.Proof.KRun
import proofs.«178137_j82291573391519_1_alg».proof.Proof.KFold
import proofs.«178137_j82291573391519_1_alg».proof.Proof.RFold
import proofs.«178137_j82291573391519_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs and leaves its arguments as launched. -/
theorem frame_p : Cert.frame_Kernel := fun m ρ _ => Cert.Kernel.Gen.frame m ρ

/-- The idealized kernel runs and leaves its arguments as launched. -/
theorem frame_pi : Cert.frame_KernelIdeal := fun m ρ _ => Cert.KernelIdeal.Gen.frame m ρ

/-- The reference runs and leaves its arguments as launched: no operation of its line writes an argument. -/
theorem frame_ri : Cert.frame_ReferenceIdeal := fun m ρ _ =>
  (θ_run Cert.ReferenceIdeal.defs _ _).mono (fun _ h c =>
    ⟨(h c _).trans (Cert.ReferenceIdeal.FoldV.at_arg0 _), (h c _).trans (Cert.ReferenceIdeal.FoldV.at_arg1 _),
     (h c _).trans (Cert.ReferenceIdeal.FoldV.at_arg2 _), (h c _).trans (Cert.ReferenceIdeal.FoldV.at_arg3 _),
     (h c _).trans (Cert.ReferenceIdeal.FoldV.at_arg4 _), (h c _).trans (Cert.ReferenceIdeal.FoldV.at_arg5 _),
     (h c _).trans (Cert.ReferenceIdeal.FoldV.at_arg6 _)⟩)
    (Cert.ReferenceIdeal.ValueP.run_raw (F := Ideal) m ρ)

/-- The ideal pass rewrote nothing: the idealization is the kernel's own text read on the extended reals. -/
theorem preserves : Cert.preserves_Kernel_KernelIdeal := trivial

/-- From memories that agree on the arguments both idealized programs end with the forward pass of the arguments in
    their result buffers. -/
theorem algebraic : Cert.algebraic_KernelIdeal_ReferenceIdeal := by
  intro m ρ m' ρ' _ hagree
  refine ⟨fun c => Cert.KernelIdeal.FoldV.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.FoldV.w9_v63 m ρ c), (h c).2⟩)
      (Cert.KernelIdeal.RunV.run_result (F := Ideal) m ρ)
  · refine (θ_run Cert.ReferenceIdeal.defs _ _).mono (fun r h c =>
      ⟨?_, (h c _).trans (Cert.ReferenceIdeal.FoldV.at_arg0 _), (h c _).trans (Cert.ReferenceIdeal.FoldV.at_arg1 _),
       (h c _).trans (Cert.ReferenceIdeal.FoldV.at_arg2 _), (h c _).trans (Cert.ReferenceIdeal.FoldV.at_arg3 _),
       (h c _).trans (Cert.ReferenceIdeal.FoldV.at_arg4 _), (h c _).trans (Cert.ReferenceIdeal.FoldV.at_arg5 _),
       (h c _).trans (Cert.ReferenceIdeal.FoldV.at_arg6 _)⟩)
      (Cert.ReferenceIdeal.ValueP.run_raw (F := Ideal) m' ρ')
    refine (h c _).trans ((Cert.ReferenceIdeal.FoldV.at_result (launchContents m' c)).trans ?_)
    have e0 : launchContents m' c (Proc.devRef .tc Cert.ReferenceIdeal.main_arg0) = m ((c.tc : Thread Cert.KernelIdeal.nD Cert.KernelIdeal.τ).loc Cert.KernelIdeal.main_arg0) := (hagree c).1
    have e1 : launchContents m' c (Proc.devRef .tc Cert.ReferenceIdeal.main_arg1) = m ((c.tc : Thread Cert.KernelIdeal.nD Cert.KernelIdeal.τ).loc Cert.KernelIdeal.main_arg1) := (hagree c).2.1
    have e2 : launchContents m' c (Proc.devRef .tc Cert.ReferenceIdeal.main_arg2) = m ((c.tc : Thread Cert.KernelIdeal.nD Cert.KernelIdeal.τ).loc Cert.KernelIdeal.main_arg2) := (hagree c).2.2.1
    have e3 : launchContents m' c (Proc.devRef .tc Cert.ReferenceIdeal.main_arg3) = m ((c.tc : Thread Cert.KernelIdeal.nD Cert.KernelIdeal.τ).loc Cert.KernelIdeal.main_arg3) := (hagree c).2.2.2.1
    have e4 : launchContents m' c (Proc.devRef .tc Cert.ReferenceIdeal.main_arg4) = m ((c.tc : Thread Cert.KernelIdeal.nD Cert.KernelIdeal.τ).loc Cert.KernelIdeal.main_arg4) := (hagree c).2.2.2.2.1
    have e5 : launchContents m' c (Proc.devRef .tc Cert.ReferenceIdeal.main_arg5) = m ((c.tc : Thread Cert.KernelIdeal.nD Cert.KernelIdeal.τ).loc Cert.KernelIdeal.main_arg5) := (hagree c).2.2.2.2.2.1
    have e6 : launchContents m' c (Proc.devRef .tc Cert.ReferenceIdeal.main_arg6) = m ((c.tc : Thread Cert.KernelIdeal.nD Cert.KernelIdeal.τ).loc Cert.KernelIdeal.main_arg6) := (hagree c).2.2.2.2.2.2
    rw [e0, e1, e2, e3, e4, e5, e6]
    exact Cert.Gcn.Bridge.ref_eq_kernel _ _ _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
